-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x256 : Shape := ⟨2, ![8, 256]⟩
abbrev S256x1024 : Shape := ⟨2, ![256, 1024]⟩
abbrev S256x256 : Shape := ⟨2, ![256, 256]⟩
abbrev S1024x256 : Shape := ⟨2, ![1024, 256]⟩
abbrev S256 : Shape := ⟨1, ![256]⟩
abbrev S256x1280 : Shape := ⟨2, ![256, 1280]⟩
abbrev S256x512 : Shape := ⟨2, ![256, 512]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x256 : S_.BroadcastsInDim S8x256 (![] : Fin 0 → Fin S8x256.rank)
  reducesTo_S8x256_S_d0_1 : S8x256.ReducesTo [0, 1] S_
  bcast_S_S256x1024 : S_.BroadcastsInDim S256x1024 (![] : Fin 0 → Fin S256x1024.rank)
  reducesTo_S256x1024_S_d0_1 : S256x1024.ReducesTo [0, 1] S_
  bcast_S_S256x256 : S_.BroadcastsInDim S256x256 (![] : Fin 0 → Fin S256x256.rank)
  reducesTo_S256x256_S_d0_1 : S256x256.ReducesTo [0, 1] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S256x1280 : S_.BroadcastsInDim S256x1280 (![] : Fin 0 → Fin S256x1280.rank)
  reducesTo_S256x1280_S_d0_1 : S256x1280.ReducesTo [0, 1] S_
  bcast_S_S256x512 : S_.BroadcastsInDim S256x512 (![] : Fin 0 → Fin S256x512.rank)
  reducesTo_S256x512_S_d0_1 : S256x512.ReducesTo [0, 1] S_

variable [Facts]

def fn_part4 {F : FTy → Type} [FloatOps F] (main_arg14 : FVec F S256x256 .f32) (main_arg15 : FVec F S256 .f32) (main_v63 : IVec S_ 1) (main_v67 : IVec S_ 1) : IVec S_ 1 :=
  let main_v68 : IVec S_ 1 := andi main_v63 main_v67
  let main_v69 : FVec F S256x256 .f32 := Host.absf main_arg14
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  main_v78

def fn_part3 {F : FTy → Type} [FloatOps F] (main_arg11 : FVec F S256 .f32) (main_arg12 : FVec F S256x512 .f32) (main_arg13 : FVec F S256 .f32) (main_arg14 : FVec F S256x256 .f32) (main_arg15 : FVec F S256 .f32) (main_v48 : IVec S_ 1) (main_v49 : FVec F S256x1280 .f32) (main_v50 : FVec F S256x1280 .f32) : IVec S_ 1 :=
  let main_v51 : IVec S256x1280 1 := cmpf .olt main_v49 main_v50
  let main_c_19 : IVec S_ 1 := constantI S_ 1 1#1
  let main_v52 : IVec S_ 1 := (fun x v => Host.reduce IntOp.andi x v reducesTo_S256x1280_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x512 .f32 := Host.absf main_arg12
  let main_cst_22 : FVec F S_ .f32 := constant S_ .f32 0x7F800000#32
  let main_v60 : FVec F S256x512 .f32 := broadcastInDim S256x512 ![] bcast_S_S256x512 main_cst_22
  let main_v61 : IVec S256x512 1 := cmpf .olt main_v59 main_v60
  let main_c_23 : IVec S_ 1 := constantI S_ 1 1#1
  let main_v62 : IVec S_ 1 := (fun x v => Host.reduce IntOp.andi x v reducesTo_S256x512_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_v63 main_v67

def fn_part2 {F : FTy → Type} [FloatOps F] (main_arg7 : FVec F S256 .f32) (main_arg8 : FVec F S256x256 .f32) (main_arg9 : FVec F S256 .f32) (main_arg10 : FVec F S256x1280 .f32) (main_arg11 : FVec F S256 .f32) (main_arg12 : FVec F S256x512 .f32) (main_arg13 : FVec F S256 .f32) (main_arg14 : FVec F S256x256 .f32) (main_arg15 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x1280 .f32 := Host.absf main_arg10
  let main_cst_18 : FVec F S_ .f32 := constant S_ .f32 0x7F800000#32
  let main_v50 : FVec F S256x1280 .f32 := broadcastInDim S256x1280 ![] bcast_S_S256x1280 main_cst_18
  fn_part3 (F := F) main_arg11 main_arg12 main_arg13 main_arg14 main_arg15 main_v48 main_v49 main_v50

def fn_part1 {F : FTy → Type} [FloatOps F] (main_arg4 : FVec F S256x256 .f32) (main_arg5 : FVec F S1024x256 .f32) (main_arg6 : FVec F S256x1024 .f32) (main_arg7 : FVec F S256 .f32) (main_arg8 : FVec F S256x256 .f32) (main_arg9 : FVec F S256 .f32) (main_arg10 : FVec F S256x1280 .f32) (main_arg11 : FVec F S256 .f32) (main_arg12 : FVec F S256x512 .f32) (main_arg13 : FVec F S256 .f32) (main_arg14 : FVec F S256x256 .f32) (main_arg15 : FVec F S256 .f32) (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S1024x256 .f32 := Host.absf main_arg5
  let main_cst_8 : FVec F S_ .f32 := constant S_ .f32 0x7F800000#32
  let main_v25 : FVec F S1024x256 .f32 := broadcastInDim S1024x256 ![] bcast_S_S1024x256 main_cst_8
  let main_v26 : IVec S1024x256 1 := cmpf .olt main_v24 main_v25
  let main_c_9 : IVec S_ 1 := constantI S_ 1 1#1
  let main_v27 : IVec S_ 1 := (fun x v => Host.reduce IntOp.andi x v reducesTo_S1024x256_S_d0_1 h_S_) main_v26 main_c_9
  let main_v28 : IVec S_ 1 := andi main_v23 main_v27
  let main_v29 : FVec F S256x1024 .f32 := Host.absf main_arg6
  let main_cst_10 : FVec F S_ .f32 := constant S_ .f32 0x7F800000#32
  let main_v30 : FVec F S256x1024 .f32 := broadcastInDim S256x1024 ![] bcast_S_S256x1024 main_cst_10
  let main_v31 : IVec S256x1024 1 := cmpf .olt main_v29 main_v30
  let main_c_11 : IVec S_ 1 := constantI S_ 1 1#1
  let main_v32 : IVec S_ 1 := (fun x v => Host.reduce IntOp.andi x v reducesTo_S256x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S8x2048x1024 .f32) (main_arg1 : FVec F S8x256 .f32) (main_arg2 : FVec F S256x1024 .f32) (main_arg3 : FVec F S256x1024 .f32) (main_arg4 : FVec F S256x256 .f32) (main_arg5 : FVec F S1024x256 .f32) (main_arg6 : FVec F S256x1024 .f32) (main_arg7 : FVec F S256 .f32) (main_arg8 : FVec F S256x256 .f32) (main_arg9 : FVec F S256 .f32) (main_arg10 : FVec F S256x1280 .f32) (main_arg11 : FVec F S256 .f32) (main_arg12 : FVec F S256x512 .f32) (main_arg13 : FVec F S256 .f32) (main_arg14 : FVec F S256x256 .f32) (main_arg15 : FVec F S256 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x256 .f32 := Host.absf main_arg1
  let main_cst_0 : FVec F S_ .f32 := constant S_ .f32 0x7F800000#32
  let main_v5 : FVec F S8x256 .f32 := broadcastInDim S8x256 ![] bcast_S_S8x256 main_cst_0
  let main_v6 : IVec S8x256 1 := cmpf .olt main_v4 main_v5
  let main_c_1 : IVec S_ 1 := constantI S_ 1 1#1
  let main_v7 : IVec S_ 1 := (fun x v => Host.reduce IntOp.andi x v reducesTo_S8x256_S_d0_1 h_S_) main_v6 main_c_1
  let main_v8 : IVec S_ 1 := andi main_v3 main_v7
  let main_v9 : FVec F S256x1024 .f32 := Host.absf main_arg2
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  let main_v14 : FVec F S256x1024 .f32 := Host.absf main_arg3
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S8x2048x1024 : Shape := ⟨3, ![8, 2048, 1024]⟩
abbrev S8x256 : Shape := ⟨2, ![8, 256]⟩
abbrev S256x1024 : Shape := ⟨2, ![256, 1024]⟩
abbrev S256x256 : Shape := ⟨2, ![256, 256]⟩
abbrev S1024x256 : Shape := ⟨2, ![1024, 256]⟩
abbrev S256 : Shape := ⟨1, ![256]⟩
abbrev S256x1280 : Shape := ⟨2, ![256, 1280]⟩
abbrev S256x512 : Shape := ⟨2, ![256, 512]⟩
abbrev S1280x256 : Shape := ⟨2, ![1280, 256]⟩
abbrev S512x256 : Shape := ⟨2, ![512, 256]⟩
abbrev S8x1x256 : Shape := ⟨3, ![8, 1, 256]⟩
abbrev S1x512x1024 : Shape := ⟨3, ![1, 512, 1024]⟩
abbrev S1x1x256 : Shape := ⟨3, ![1, 1, 256]⟩
abbrev S512x1024 : Shape := ⟨2, ![512, 1024]⟩
abbrev S1x256 : Shape := ⟨2, ![1, 256]⟩
abbrev S512x1280 : Shape := ⟨2, ![512, 1280]⟩
abbrev S512x512 : Shape := ⟨2, ![512, 512]⟩

abbrev nBuf : Space → Nat
  | .hbm => 38
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S8x256, .f32⟩
  | .hbm, ⟨2, _⟩ => ⟨S256x1024, .f32⟩
  | .hbm, ⟨3, _⟩ => ⟨S256x1024, .f32⟩
  | .hbm, ⟨4, _⟩ => ⟨S256x256, .f32⟩
  | .hbm, ⟨5, _⟩ => ⟨S1024x256, .f32⟩
  | .hbm, ⟨6, _⟩ => ⟨S256x1024, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x1280, .f32⟩
  | .hbm, ⟨11, _⟩ => ⟨S256, .f32⟩
  | .hbm, ⟨12, _⟩ => ⟨S256x512, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S1024x256, .f32⟩
  | .hbm, ⟨17, _⟩ => ⟨S1024x256, .bf16⟩
  | .hbm, ⟨18, _⟩ => ⟨S1024x256, .f32⟩
  | .hbm, ⟨19, _⟩ => ⟨S1024x256, .bf16⟩
  | .hbm, ⟨20, _⟩ => ⟨S256x256, .f32⟩
  | .hbm, ⟨21, _⟩ => ⟨S256x256, .bf16⟩
  | .hbm, ⟨22, _⟩ => ⟨S256x1024, .f32⟩
  | .hbm, ⟨23, _⟩ => ⟨S256x1024, .bf16⟩
  | .hbm, ⟨24, _⟩ => ⟨S1024x256, .f32⟩
  | .hbm, ⟨25, _⟩ => ⟨S1024x256, .bf16⟩
  | .hbm, ⟨26, _⟩ => ⟨S256x256, .f32⟩
  | .hbm, ⟨27, _⟩ => ⟨S256x256, .bf16⟩
  | .hbm, ⟨28, _⟩ => ⟨S1280x256, .f32⟩
  | .hbm, ⟨29, _⟩ => ⟨S1280x256, .bf16⟩
  | .hbm, ⟨30, _⟩ => ⟨S512x256, .f32⟩
  | .hbm, ⟨31, _⟩ => ⟨S512x256, .bf16⟩
  | .hbm, ⟨32, _⟩ => ⟨S256x256, .f32⟩
  | .hbm, ⟨33, _⟩ => ⟨S256x256, .bf16⟩
  | .hbm, ⟨34, _⟩ => ⟨S8x1x256, .f32⟩
  | .hbm, ⟨35, _⟩ => ⟨S8x2048x1024, .f32⟩
  | .hbm, ⟨36, _⟩ => ⟨S8x1x256, .f32⟩
  | .hbm, ⟨37, _⟩ => ⟨S8x256, .f32⟩
  | .local _ .vmem, ⟨0, _⟩ => ⟨S1x512x1024, .f32⟩
  | .local _ .vmem, ⟨1, _⟩ => ⟨S1x512x1024, .f32⟩
  | .local _ .vmem, ⟨2, _⟩ => ⟨S1x1x256, .f32⟩
  | .local _ .vmem, ⟨3, _⟩ => ⟨S1x1x256, .f32⟩
  | .local _ .vmem, ⟨4, _⟩ => ⟨S1024x256, .bf16⟩
  | .local _ .vmem, ⟨5, _⟩ => ⟨S1024x256, .bf16⟩
  | .local _ .vmem, ⟨6, _⟩ => ⟨S256x256, .bf16⟩
  | .local _ .vmem, ⟨7, _⟩ => ⟨S256x1024, .bf16⟩
  | .local _ .vmem, ⟨8, _⟩ => ⟨S1024x256, .bf16⟩
  | .local _ .vmem, ⟨9, _⟩ => ⟨S256, .f32⟩
  | .local _ .vmem, ⟨10, _⟩ => ⟨S256x256, .bf16⟩
  | .local _ .vmem, ⟨11, _⟩ => ⟨S256, .f32⟩
  | .local _ .vmem, ⟨12, _⟩ => ⟨S1280x256, .bf16⟩
  | .local _ .vmem, ⟨13, _⟩ => ⟨S256, .f32⟩
  | .local _ .vmem, ⟨14, _⟩ => ⟨S512x256, .bf16⟩
  | .local _ .vmem, ⟨15, _⟩ => ⟨S256, .f32⟩
  | .local _ .vmem, ⟨16, _⟩ => ⟨S256x256, .bf16⟩
  | .local _ .vmem, ⟨17, _⟩ => ⟨S256, .f32⟩
  | .local _ .vmem, ⟨18, _⟩ => ⟨S1x512x1024, .f32⟩
  | .local _ .vmem, ⟨19, _⟩ => ⟨S1x512x1024, .f32⟩
  | .local _ .vmem, ⟨20, _⟩ => ⟨S1x1x256, .f32⟩
  | .local _ .vmem, ⟨21, _⟩ => ⟨S1x1x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19_0 : Ref sig .tc := ⟨.hbm, 35, rfl⟩
abbrev main_v19_1 : Ref sig .tc := ⟨.hbm, 36, rfl⟩
abbrev main_v20 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19
abbrev cc0_sem17_0 : DmaSem sig := 20
abbrev cc0_sem17_1 : DmaSem sig := 21

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c3_i32 : BitVec 32 := 3#32
  let v85 : BitVec 1 := Scalar.cmpi .eq arg1 c3_i32
  let v86 : BitVec 32 := Scalar.extui v85
  let c0_i32 : BitVec 32 := 0#32
  let v87 : BitVec 1 := Scalar.cmpi .ne v86 c0_i32
  v87

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1280x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

class Facts₀ : Prop where
  transposes_S256x1024_S1024x256_1_0 : S256x1024.Transposes [1, 0] S1024x256
  bitsLt_bf16_f32 : FTy.bits .bf16 < FTy.bits .f32
  transposes_S256x256_S256x256_1_0 : S256x256.Transposes [1, 0] S256x256
  transposes_S1024x256_S256x1024_1_0 : S1024x256.Transposes [1, 0] S256x1024
  transposes_S256x1280_S1280x256_1_0 : S256x1280.Transposes [1, 0] S1280x256
  transposes_S256x512_S512x256_1_0 : S256x512.Transposes [1, 0] S512x256
  shapeCasts_S8x256_S8x1x256 : S8x256.ShapeCasts S8x1x256
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1x256_S1x1x256_0_0_0 : ∀ a, (![0, 0, 0] : Fin 3 → Nat) a + S1x1x256.size a ≤ S1x1x256.size a
  h_S1x1x256 : 0 < S1x1x256.numel
  shapeCasts_S1x1x256_S256 : S1x1x256.ShapeCasts S256
  shapeCasts_S256_S1x256 : S256.ShapeCasts S1x256
  shapeCasts_S1x256_S1x256 : S1x256.ShapeCasts S1x256
  broadcasts_S1x256_S512x256 : S1x256.Broadcasts S512x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  concatenates_S512x1024_S512x256_S512x1280_d1 : Shape.Concatenates [S512x1024, S512x256] S512x1280 1
  inb_S1280x256_S1280x256_0_0 : ∀ a, (![0, 0] : Fin 2 → Nat) a + S1280x256.size a ≤ S1280x256.size a
  h_S1280x256 : 0 < S1280x256.numel
  shapeCasts_S1280x256_S1280x256 : S1280x256.ShapeCasts S1280x256
  inb_S256_S256_0 : ∀ a, (![0] : Fin 1 → Nat) a + S256.size a ≤ S256.size a
  h_S256 : 0 < S256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  concatenates_S512x256_S512x256_S512x512_d1 : Shape.Concatenates [S512x256, S512x256] S512x512 1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  shapeCasts_S512x1024_S1x512x1024 : S512x1024.ShapeCasts S1x512x1024
  slices_S512x256_o511_0_S1x256 : S512x256.Slices ![511, 0] S1x256
  shapeCasts_S1x1x256_S1x256 : S1x1x256.ShapeCasts S1x256
  shapeCasts_S1x256_S1x1x256 : S1x256.ShapeCasts S1x1x256
  shapeCasts_S8x1x256_S8x256 : S8x1x256.ShapeCasts S8x256
  dot_S512x1024_S1024x256_S512x256_1_0_0_1_n_n_wf : DotDims.WF S512x1024 S1024x256 S512x256 [1] [0] [0] [1] [] []
  dot_S512x1280_S1280x256_S512x256_1_0_0_1_n_n_wf : DotDims.WF S512x1280 S1280x256 S512x256 [1] [0] [0] [1] [] []
  dot_S512x256_S256x256_S512x256_1_0_0_1_n_n_wf : DotDims.WF S512x256 S256x256 S512x256 [1] [0] [0] [1] [] []
  dot_S512x512_S512x256_S512x256_1_0_0_1_n_n_wf : DotDims.WF S512x512 S512x256 S512x256 [1] [0] [0] [1] [] []
  dot_S512x256_S256x1024_S512x1024_1_0_0_1_n_n_wf : DotDims.WF S512x256 S256x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .f32 = 32 ∨ (Rect.block (s := S8x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256.size a ≤ S8x1x256.size a
  hwx0_1 : ∀ i : grid0.Coords, EltTy.bits .f32 = 32 ∨ (Rect.block (s := S8x1x256) S1x1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .bf16 = 32 ∨ (Rect.block (s := S1024x256) S1024x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .bf16 = 32 ∨ (Rect.block (s := S1024x256) S1024x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S256x1024.size a
  hwx0_5 : ∀ i : grid0.Coords, EltTy.bits .bf16 = 32 ∨ (Rect.block (s := S256x1024) S256x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S1024x256.size a
  hwx0_6 : ∀ i : grid0.Coords, EltTy.bits .bf16 = 32 ∨ (Rect.block (s := S1024x256) S1024x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .bf16 = 32 ∨ (Rect.block (s := S256x256) S256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1280x256.size a ≤ S1280x256.size a
  hwx0_10 : ∀ i : grid0.Coords, EltTy.bits .bf16 = 32 ∨ (Rect.block (s := S1280x256) S1280x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256.size a ≤ S256.size a
  hwx0_11 : ∀ i : grid0.Coords, EltTy.bits .f32 = 32 ∨ (Rect.block (s := S256) S256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x256.size a ≤ S512x256.size a
  hwx0_12 : ∀ i : grid0.Coords, EltTy.bits .bf16 = 32 ∨ (Rect.block (s := S512x256) S512x256.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256.size a ≤ S256.size a
  hwx0_13 : ∀ i : grid0.Coords, EltTy.bits .f32 = 32 ∨ (Rect.block (s := S256) S256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256x256.size a ≤ S256x256.size a
  hwx0_14 : ∀ i : grid0.Coords, EltTy.bits .bf16 = 32 ∨ (Rect.block (s := S256x256) S256x256.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256.size a ≤ S256.size a
  hwx0_15 : ∀ i : grid0.Coords, EltTy.bits .f32 = 32 ∨ (Rect.block (s := S256) S256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x512x1024.size a ≤ S8x2048x1024.size a
  hwx0_16 : ∀ i : grid0.Coords, EltTy.bits .f32 = 32 ∨ (Rect.block (s := S8x2048x1024) S1x512x1024.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x1x256.size a ≤ S8x1x256.size a
  hwx0_17 : ∀ i : grid0.Coords, EltTy.bits .f32 = 32 ∨ (Rect.block (s := S8x1x256) S1x1x256.size (cc0_transform_17 i) (hinb0_17 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x1280_S1280x256_S512x256_1_0_0_1_n_n : DotDims S512x1280 S1280x256 S512x256 where
  lhsContracting := [1]
  rhsContracting := [0]
  lhsNonContracting := [0]
  rhsNonContracting := [1]
  lhsBatch := []
  rhsBatch := []
  wf := dot_S512x1280_S1280x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1x1x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S256x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1024x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13) S1280x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v15) S512x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v17) S256x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v19_0) S1x512x1024.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v19_1) S1x1x256.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

abbrev idle0 : Fin 18 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun i => !(k0_cond1 i == 1#1) | ⟨_ + 18, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S8x256 : Shape := ⟨2, ![8, 256]⟩
abbrev S256x1024 : Shape := ⟨2, ![256, 1024]⟩
abbrev S256x256 : Shape := ⟨2, ![256, 256]⟩
abbrev S1024x256 : Shape := ⟨2, ![1024, 256]⟩
abbrev S256 : Shape := ⟨1, ![256]⟩
abbrev S256x1280 : Shape := ⟨2, ![256, 1280]⟩
abbrev S256x512 : Shape := ⟨2, ![256, 512]⟩
abbrev S8x2048x256 : Shape := ⟨3, ![8, 2048, 256]⟩
abbrev S8x1x256 : Shape := ⟨3, ![8, 1, 256]⟩
abbrev S8x2048x1280 : Shape := ⟨3, ![8, 2048, 1280]⟩
abbrev S1x1x256 : Shape := ⟨3, ![1, 1, 256]⟩
abbrev S_ : Shape := ⟨0, ![]⟩
abbrev S8x2048x512 : Shape := ⟨3, ![8, 2048, 512]⟩

abbrev nBuf : Space → Nat
  | .hbm => 102
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x256, .f32⟩
  | .hbm, ⟨2, _⟩ => ⟨S256x1024, .f32⟩
  | .hbm, ⟨3, _⟩ => ⟨S256x1024, .f32⟩
  | .hbm, ⟨4, _⟩ => ⟨S256x256, .f32⟩
  | .hbm, ⟨5, _⟩ => ⟨S1024x256, .f32⟩
  | .hbm, ⟨6, _⟩ => ⟨S256x1024, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x1280, .f32⟩
  | .hbm, ⟨11, _⟩ => ⟨S256, .f32⟩
  | .hbm, ⟨12, _⟩ => ⟨S256x512, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S8x2048x256, .f32⟩
  | .hbm, ⟨17, _⟩ => ⟨S8x1x256, .f32⟩
  | .hbm, ⟨18, _⟩ => ⟨S8x2048x256, .f32⟩
  | .hbm, ⟨19, _⟩ => ⟨S8x2048x1280, .f32⟩
  | .hbm, ⟨20, _⟩ => ⟨S8x2048x256, .f32⟩
  | .hbm, ⟨21, _⟩ => ⟨S1x1x256, .f32⟩
  | .hbm, ⟨22, _⟩ => ⟨S8x2048x256, .f32⟩
  | .hbm, ⟨23, _⟩ => ⟨S8x2048x256, .f32⟩
  | .hbm, ⟨24, _⟩ => ⟨S8x2048x256, .f32⟩
  | .hbm, ⟨25, _⟩ => ⟨S8x2048x256, .f32⟩
  | .hbm, ⟨26, _⟩ => ⟨S_, .f32⟩
  | .hbm, ⟨27, _⟩ => ⟨S8x2048x256, .f32⟩
  | .hbm, ⟨28, _⟩ => ⟨S8x2048x256, .f32⟩
  | .hbm, ⟨29, _⟩ => ⟨S_, .f32⟩
  | .hbm, ⟨30, _⟩ => ⟨S8x2048x256, .f32⟩
  | .hbm, ⟨31, _⟩ => ⟨S8x2048x256, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S8x2048x256, .f32⟩
  | .hbm, ⟨36, _⟩ => ⟨S8x2048x256, .f32⟩
  | .hbm, ⟨37, _⟩ => ⟨S_, .f32⟩
  | .hbm, ⟨38, _⟩ => ⟨S8x2048x256, .f32⟩
  | .hbm, ⟨39, _⟩ => ⟨S8x2048x256, .f32⟩
  | .hbm, ⟨40, _⟩ => ⟨S_, .f32⟩
  | .hbm, ⟨41, _⟩ => ⟨S8x2048x256, .f32⟩
  | .hbm, ⟨42, _⟩ => ⟨S8x2048x256, .f32⟩
  | .hbm, ⟨43, _⟩ => ⟨S8x2048x256, .f32⟩
  | .hbm, ⟨44, _⟩ => ⟨S8x2048x256, .f32⟩
  | .hbm, ⟨45, _⟩ => ⟨S8x2048x256, .f32⟩
  | .hbm, ⟨46, _⟩ => ⟨S8x2048x256, .f32⟩
  | .hbm, ⟨47, _⟩ => ⟨S8x2048x256, .f32⟩
  | .hbm, ⟨48, _⟩ => ⟨S8x2048x256, .f32⟩
  | .hbm, ⟨49, _⟩ => ⟨S_, .f32⟩
  | .hbm, ⟨50, _⟩ => ⟨S8x2048x256, .f32⟩
  | .hbm, ⟨51, _⟩ => ⟨S8x2048x256, .f32⟩
  | .hbm, ⟨52, _⟩ => ⟨S8x2048x256, .f32⟩
  | .hbm, ⟨53, _⟩ => ⟨S8x2048x512, .f32⟩
  | .hbm, ⟨54, _⟩ => ⟨S8x2048x256, .f32⟩
  | .hbm, ⟨55, _⟩ => ⟨S1x1x256, .f32⟩
  | .hbm, ⟨56, _⟩ => ⟨S8x2048x256, .f32⟩
  | .hbm, ⟨57, _⟩ => ⟨S8x2048x256, .f32⟩
  | .hbm, ⟨58, _⟩ => ⟨S8x2048x256, .f32⟩
  | .hbm, ⟨59, _⟩ => ⟨S8x2048x256, .f32⟩
  | .hbm, ⟨60, _⟩ => ⟨S1x1x256, .f32⟩
  | .hbm, ⟨61, _⟩ => ⟨S8x2048x256, .f32⟩
  | .hbm, ⟨62, _⟩ => ⟨S8x2048x256, .f32⟩
  | .hbm, ⟨63, _⟩ => ⟨S8x2048x256, .f32⟩
  | .hbm, ⟨64, _⟩ => ⟨S8x2048x256, .f32⟩
  | .hbm, ⟨65, _⟩ => ⟨S_, .f32⟩
  | .hbm, ⟨66, _⟩ => ⟨S8x2048x256, .f32⟩
  | .hbm, ⟨67, _⟩ => ⟨S8x2048x256, .f32⟩
  | .hbm, ⟨68, _⟩ => ⟨S_, .f32⟩
  | .hbm, ⟨69, _⟩ => ⟨S8x2048x256, .f32⟩
  | .hbm, ⟨70, _⟩ => ⟨S8x2048x256, .f32⟩
  | .hbm, ⟨71, _⟩ => ⟨S8x2048x256, .f32⟩
  | .hbm, ⟨72, _⟩ => ⟨S8x2048x256, .f32⟩
  | .hbm, ⟨73, _⟩ => ⟨S8x2048x256, .f32⟩
  | .hbm, ⟨74, _⟩ => ⟨S1x1x256, .f32⟩
  | .hbm, ⟨75, _⟩ => ⟨S8x2048x256, .f32⟩
  | .hbm, ⟨76, _⟩ => ⟨S8x2048x256, .f32⟩
  | .hbm, ⟨77, _⟩ => ⟨S8x2048x256, .f32⟩
  | .hbm, ⟨78, _⟩ => ⟨S8x2048x256, .f32⟩
  | .hbm, ⟨79, _⟩ => ⟨S_, .f32⟩
  | .hbm, ⟨80, _⟩ => ⟨S8x2048x256, .f32⟩
  | .hbm, ⟨81, _⟩ => ⟨S8x2048x256, .f32⟩
  | .hbm, ⟨82, _⟩ => ⟨S_, .f32⟩
  | .hbm, ⟨83, _⟩ => ⟨S8x2048x256, .f32⟩
  | .hbm, ⟨84, _⟩ => ⟨S8x2048x256, .f32⟩
  | .hbm, ⟨85, _⟩ => ⟨S8x2048x256, .f32⟩
  | .hbm, ⟨86, _⟩ => ⟨S1x1x256, .f32⟩
  | .hbm, ⟨87, _⟩ => ⟨S8x2048x256, .f32⟩
  | .hbm, ⟨88, _⟩ => ⟨S8x2048x256, .f32⟩
  | .hbm, ⟨89, _⟩ => ⟨S8x2048x256, .f32⟩
  | .hbm, ⟨90, _⟩ => ⟨S8x2048x256, .f32⟩
  | .hbm, ⟨91, _⟩ => ⟨S_, .f32⟩
  | .hbm, ⟨92, _⟩ => ⟨S8x2048x256, .f32⟩
  | .hbm, ⟨93, _⟩ => ⟨S8x2048x256, .f32⟩
  | .hbm, ⟨94, _⟩ => ⟨S_, .f32⟩
  | .hbm, ⟨95, _⟩ => ⟨S8x2048x256, .f32⟩
  | .hbm, ⟨96, _⟩ => ⟨S8x2048x256, .f32⟩
  | .hbm, ⟨97, _⟩ => ⟨S8x2048x256, .f32⟩
  | .hbm, ⟨98, _⟩ => ⟨S8x2048x256, .f32⟩
  | .hbm, ⟨99, _⟩ => ⟨S8x2048x1024, .f32⟩
  | .hbm, ⟨100, _⟩ => ⟨S8x1x256, .f32⟩
  | .hbm, ⟨101, _⟩ => ⟨S8x256, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v14 : Ref sig .tc := ⟨.hbm, 39, rfl⟩
abbrev main_cst_3 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_4 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_5 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_7 : Ref sig .tc := ⟨.hbm, 79, rfl⟩
abbrev main_v50 : Ref sig .tc := ⟨.hbm, 80, rfl⟩
abbrev main_v51 : Ref sig .tc := ⟨.hbm, 81, rfl⟩
abbrev main_cst_8 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_9 : Ref sig .tc := ⟨.hbm, 91, rfl⟩
abbrev main_v60 : Ref sig .tc := ⟨.hbm, 92, rfl⟩
abbrev main_v61 : Ref sig .tc := ⟨.hbm, 93, rfl⟩
abbrev main_cst_10 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩

abbrev nD : Nat := 1
abbrev τ : Topo := Topo.v7x

variable {F : FTy → Type} [FloatOps F]

class Facts₀ : Prop where
  bcast_S8x256_S8x1x256_0_2 : S8x256.BroadcastsInDim S8x1x256 (![0, 2] : Fin 2 → Fin S8x1x256.rank)
  bcast_S8x1x256_S8x2048x256_0_1_2 : S8x1x256.BroadcastsInDim S8x2048x256 (![0, 1, 2] : Fin 3 → Fin S8x2048x256.rank)
  concatenates_S8x2048x1024_S8x2048x256_S8x2048x1280_d2 : Shape.Concatenates [S8x2048x1024, S8x2048x256] S8x2048x1280 2
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  bcast_S_S8x2048x256 : S_.BroadcastsInDim S8x2048x256 (![] : Fin 0 → Fin S8x2048x256.rank)
  concatenates_S8x2048x256_S8x2048x256_S8x2048x512_d2 : Shape.Concatenates [S8x2048x256, S8x2048x256] S8x2048x512 2
  slices_S8x2048x256_S8x1x256_0_2047_0 : S8x2048x256.Slices ![0, 2047, 0] S8x1x256
  shapeCasts_S8x1x256_S8x256 : S8x1x256.ShapeCasts S8x256
  dot_S8x2048x1024_S256x1024_S8x2048x256_2_1_01_0_n_n_wf : DotDims.WF S8x2048x1024 S256x1024 S8x2048x256 [2] [1] [0, 1] [0] [] []
  dot_S8x2048x1280_S256x1280_S8x2048x256_2_1_01_0_n_n_wf : DotDims.WF S8x2048x1280 S256x1280 S8x2048x256 [2] [1] [0, 1] [0] [] []
  dot_S8x2048x256_S256x256_S8x2048x256_2_1_01_0_n_n_wf : DotDims.WF S8x2048x256 S256x256 S8x2048x256 [2] [1] [0, 1] [0] [] []
  dot_S8x2048x512_S256x512_S8x2048x256_2_1_01_0_n_n_wf : DotDims.WF S8x2048x512 S256x512 S8x2048x256 [2] [1] [0, 1] [0] [] []
  dot_S8x2048x256_S1024x256_S8x2048x1024_2_1_01_0_n_n_wf : DotDims.WF S8x2048x256 S1024x256 S8x2048x1024 [2] [1] [0, 1] [0] [] []

variable [Facts₀]

def dot_S8x2048x1024_S256x1024_S8x2048x256_2_1_01_0_n_n : DotDims S8x2048x1024 S256x1024 S8x2048x256 where
  lhsContracting := [2]
  rhsContracting := [1]
  lhsNonContracting := [0, 1]
  rhsNonContracting := [0]
  lhsBatch := []
  rhsBatch := []
  wf := dot_S8x2048x1024_S256x1024_S8x2048x256_2_1_01_0_n_n_wf
def dot_S8x2048x1280_S256x1280_S8x2048x256_2_1_01_0_n_n : DotDims S8x2048x1280 S256x1280 S8x2048x256 where
  lhsContracting := [2]
  rhsContracting := [1]
  lhsNonContracting := [0, 1]
  rhsNonContracting := [0]
  lhsBatch := []
  rhsBatch := []
  wf := dot_S8x2048x1280_S256x1280_S8x2048x256_2_1_01_0_n_n_wf
def dot_S8x2048x256_S256x256_S8x2048x256_2_1_01_0_n_n : DotDims S8x2048x256 S256x256 S8x2048x256 where
  lhsContracting := [2]
  rhsContracting := [1]
  lhsNonContracting := [0, 1]
  rhsNonContracting := [0]
  lhsBatch := []
  rhsBatch := []
  wf := dot_S8x2048x256_S256x256_S8x2048x256_2_1_01_0_n_n_wf
def dot_S8x2048x512_S256x512_S8x2048x256_2_1_01_0_n_n : DotDims S8x2048x512 S256x512 S8x2048x256 where
  lhsContracting := [2]
  rhsContracting := [1]
  lhsNonContracting := [0, 1]
  rhsNonContracting := [0]
  lhsBatch := []
  rhsBatch := []
  wf := dot_S8x2048x512_S256x512_S8x2048x256_2_1_01_0_n_n_wf
def dot_S8x2048x256_S1024x256_S8x2048x1024_2_1_01_0_n_n : DotDims S8x2048x256 S1024x256 S8x2048x1024 where
  lhsContracting := [2]
  rhsContracting := [1]
  lhsNonContracting := [0, 1]
  rhsNonContracting := [0]
  lhsBatch := []
  rhsBatch := []
  wf := dot_S8x2048x256_S1024x256_S8x2048x1024_2_1_01_0_n_n_wf

class Facts : Prop extends Facts₀ where

variable [Facts]
-- ==== Proof.RowSpec.lean ====
import Idealize.ShloMosaic.PureOps.Ideal
import Idealize.ShloMosaic.PureOps.IdealRules
import Idealize.ShloMosaic.Lib.ValueIdx

/-!
# One token of the recurrent cell, as a function of rows

The cell maps, independently for every batch entry `b` and time step `t`, the input row `x[b,t,:]` (1024 numbers) and
the previous-state row `s[b,:]` (256 numbers) to a hidden row `h[b,t,:]` (256 numbers) and an output row
`out[b,t,:] = h[b,t,:] · W_outᵀ` (1024 numbers). Nothing couples two tokens: the state row is the same for every `t`.
This module states that map over the extended reals, once, with the weights as functions of (output unit, input unit):

* `dot v w = ∑ₖ v k · w k`, a linear layer's one output unit;
* `cat a b`, two rows laid end to end (the context `[x, s]` and the perturbation input `[s_pred, s]`);
* `sPred = s · exp(c · clip(σ([x,s]·W_dc + b_dc), 0, 1)) + x·W_in + x·W_x + ½ · s·W_s`;
* `sCorr = sPred + σ(s·W_pg + b_pg) · tanh([sPred,s]·W_pp + b_pp)`;
* `h = sCorr · σ(x·W_gx + b_gx) · σ(s·W_gs + b_gs)`, `out q = ∑ₖ h k · W_out q k`.

The float literals stay the words the two programs print (`0.0`, `1.0`, `-0.05` rounded to f32, `0.5`): both sides
carry the same words, so none is evaluated except `1.0`, which the reference's expanded sigmoid `1 / (1 + e^(-z))`
spells as a constant where the logistic function has it built in.
-/

noncomputable section

namespace Cert.RowSpec

open Idealize.ShloMosaic

/-- One output unit of a linear layer: the contraction of an input row with that unit's weight row. -/
def dot {n : ℕ} (v w : Fin n → EReal) : EReal := ∑ k : Fin n, v k * w k

/-- Two rows laid end to end, read at a position of the joined row (positions past both rows read `0`; none occurs). -/
def cat {p q n : ℕ} (a : Fin p → EReal) (b : Fin q → EReal) (k : Fin n) : EReal :=
  if h : k.val < p then a ⟨k.val, h⟩ else if h2 : k.val - p < q then b ⟨k.val - p, h2⟩ else 0

theorem cat_left {p q n : ℕ} (a : Fin p → EReal) (b : Fin q → EReal) (k : Fin n) (h : k.val < p) :
    cat a b k = a ⟨k.val, h⟩ := dif_pos h

theorem cat_right {p q n : ℕ} (a : Fin p → EReal) (b : Fin q → EReal) (k : Fin n) (h : p ≤ k.val) (h2 : k.val - p < q) :
    cat a b k = b ⟨k.val - p, h2⟩ := by
  unfold cat
  rw [dif_neg (Nat.not_lt.2 h), dif_pos h2]

/-- The words of the four float literals both programs print. -/
abbrev zero : EReal := Ideal.ofBits .f32 0x00000000#32
abbrev one : EReal := Ideal.ofBits .f32 0x3F800000#32
abbrev negTwentieth : EReal := Ideal.ofBits .f32 0xBD4CCCCD#32
abbrev half : EReal := Ideal.ofBits .f32 0x3F000000#32

/-- The reference spells the sigmoid `1 / (1 + e^(-z))` with the constant `1.0`; that is the logistic function, at the
    infinities too (its definition is that quotient, and the word `0x3F800000` denotes `1`). -/
theorem sigmoid_expanded (z : EReal) : Ideal.div one (one + Ideal.exp (-z)) = Ideal.logistic z := by
  have h1 : Ideal.ofBits .f32 0x3F800000#32 = 1 := IdealRules.sign_bit.ideal_onePat .f32
  show Ideal.div (Ideal.ofBits .f32 0x3F800000#32) (Ideal.ofBits .f32 0x3F800000#32 + Ideal.exp (-z)) = Ideal.logistic z
  rw [h1]
  rfl

/-- The cell's weights, each as a function of (output unit, input unit), and its biases. -/
structure Params where
  Win : Fin 256 → Fin 1024 → EReal
  Wx : Fin 256 → Fin 1024 → EReal
  Ws : Fin 256 → Fin 256 → EReal
  Wout : Fin 1024 → Fin 256 → EReal
  Wgx : Fin 256 → Fin 1024 → EReal
  bgx : Fin 256 → EReal
  Wgs : Fin 256 → Fin 256 → EReal
  bgs : Fin 256 → EReal
  Wdc : Fin 256 → Fin 1280 → EReal
  bdc : Fin 256 → EReal
  Wpp : Fin 256 → Fin 512 → EReal
  bpp : Fin 256 → EReal
  Wpg : Fin 256 → Fin 256 → EReal
  bpg : Fin 256 → EReal

/-- The weights and biases read off the fourteen parameter arrays as the entry point receives them: every weight array
    is laid out (output unit, input unit), every bias is a vector over output units. -/
def paramsOf
    (a2 a3 : (⟨2, ![256, 1024]⟩ : Shape).Idx → EReal) (a4 : (⟨2, ![256, 256]⟩ : Shape).Idx → EReal)
    (a5 : (⟨2, ![1024, 256]⟩ : Shape).Idx → EReal) (a6 : (⟨2, ![256, 1024]⟩ : Shape).Idx → EReal)
    (a7 : (⟨1, ![256]⟩ : Shape).Idx → EReal) (a8 : (⟨2, ![256, 256]⟩ : Shape).Idx → EReal)
    (a9 : (⟨1, ![256]⟩ : Shape).Idx → EReal) (a10 : (⟨2, ![256, 1280]⟩ : Shape).Idx → EReal)
    (a11 : (⟨1, ![256]⟩ : Shape).Idx → EReal) (a12 : (⟨2, ![256, 512]⟩ : Shape).Idx → EReal)
    (a13 : (⟨1, ![256]⟩ : Shape).Idx → EReal) (a14 : (⟨2, ![256, 256]⟩ : Shape).Idx → EReal)
    (a15 : (⟨1, ![256]⟩ : Shape).Idx → EReal) : Params where
  Win o i := a2 (ValueIdx.ix2 o i)
  Wx o i := a3 (ValueIdx.ix2 o i)
  Ws o i := a4 (ValueIdx.ix2 o i)
  Wout q k := a5 (ValueIdx.ix2 q k)
  Wgx o i := a6 (ValueIdx.ix2 o i)
  bgx o := a7 (ValueIdx.ix1 o)
  Wgs o i := a8 (ValueIdx.ix2 o i)
  bgs o := a9 (ValueIdx.ix1 o)
  Wdc o k := a10 (ValueIdx.ix2 o k)
  bdc o := a11 (ValueIdx.ix1 o)
  Wpp o k := a12 (ValueIdx.ix2 o k)
  bpp o := a13 (ValueIdx.ix1 o)
  Wpg o i := a14 (ValueIdx.ix2 o i)
  bpg o := a15 (ValueIdx.ix1 o)

variable (P : Params) (xr : Fin 1024 → EReal) (sr : Fin 256 → EReal)

/-- The decay factor of state unit `o`: `exp(c · clip(σ([x,s]·W_dc + b_dc), 0, 1))`. -/
def decay (o : Fin 256) : EReal :=
  Ideal.exp (negTwentieth * min one (max zero (Ideal.logistic (dot (cat xr sr : Fin 1280 → EReal) (P.Wdc o) + P.bdc o))))

/-- The predicted state: `s · decay + x·W_in + x·W_x + ½ · s·W_s`, added left to right. -/
def sPred (o : Fin 256) : EReal :=
  sr o * decay P xr sr o + dot xr (P.Win o) + dot xr (P.Wx o) + half * dot sr (P.Ws o)

/-- The corrected state: the prediction plus a gated perturbation `σ(s·W_pg + b_pg) · tanh([sPred,s]·W_pp + b_pp)`. -/
def sCorr (o : Fin 256) : EReal :=
  sPred P xr sr o
    + Ideal.logistic (dot sr (P.Wpg o) + P.bpg o)
      * Ideal.tanh (dot (cat (fun i : Fin 256 => sPred P xr sr i) sr : Fin 512 → EReal) (P.Wpp o) + P.bpp o)

/-- The hidden row: the corrected state through the input gate and the state gate. -/
def hRow (o : Fin 256) : EReal :=
  sCorr P xr sr o * Ideal.logistic (dot xr (P.Wgx o) + P.bgx o) * Ideal.logistic (dot sr (P.Wgs o) + P.bgs o)

/-- The output row: the hidden row through the output layer. -/
def outRow (q : Fin 1024) : EReal := dot (hRow P xr sr) (P.Wout q)

end Cert.RowSpec

end
-- ==== Proof.BlockOps.lean ====
import proofs.«102208_j39900246180109_2_alg».proof.Proof.Gen.KernelIdeal.Skeleton
import proofs.«102208_j39900246180109_2_alg».proof.Proof.RowSpec
import Idealize.ShloMosaic.Lib.ValueIdx
import Idealize.ShloMosaic.Lib.ValueLayout
import Idealize.ShloMosaic.Lib.Pipeline.Value
import Idealize.ShloMosaic.PureOps.Ideal.Laws

/-!
# The body's non-pointwise operations, read at coordinates

One grid point of the kernel works on 512 consecutive time steps of one batch entry: a [512, 1024] block of inputs and the
batch entry's one state row, spread over the 512 rows. Everything the body does to a row is either pointwise or one of the
operations read here at a row `p` and a column: a matrix product into a zero accumulator (row `p` of the left operand
contracted with a column of the weight — only row `p` enters), a bias vector spread over the rows, the state row
spread over the rows, and two blocks joined along the columns (row `p` of the joined block is row `p` of the first
followed by row `p` of the second). So row `p` of every intermediate depends on row `p` of the inputs alone.
-/

noncomputable section

namespace Cert.BlockOps

open Idealize.ShloMosaic Idealize.ShloMosaic.ValueIdx Cert.KernelIdeal Cert.KernelIdeal.Facts₀ Cert.KernelIdeal.Facts

/-! ## Pointwise operations the index passes through (definitional) -/

theorem exp_apply {s : Shape} {φ : FTy} (a : FVec Ideal s φ) (i : s.Idx) : exp a i = Ideal.exp (a i) := rfl
theorem tanh_apply {s : Shape} {φ : FTy} (a : FVec Ideal s φ) (i : s.Idx) : tanh a i = Ideal.tanh (a i) := rfl
theorem logistic_apply {s : Shape} {φ : FTy} (a : FVec Ideal s φ) (i : s.Idx) : logistic a i = Ideal.logistic (a i) := rfl
theorem scalar_ofBits (φ : FTy) (b : BitVec φ.bits) : Scalar.ofBits (F := Ideal) φ b = Ideal.ofBits φ b := rfl

/-! ## Layout -/

/-- The state row arrives as a [1, 1, 256] block; flattened to 256 numbers, position `j` is its entry `(0, 0, j)`. -/
theorem flatten_11a_apply (v : FVec Ideal S1x1x256 .f32) (j : Fin 256) :
    shapeCast S256 v shapeCasts_S1x1x256_S256 (ix1 j) = v (ix3 (0 : Fin 1) (0 : Fin 1) j) :=
  shapeCast_apply v shapeCasts_S1x1x256_S256 _ _ (by
    rw [Shape.rowMajor_val_three, Shape.rowMajor_val_one]
    show (0 * 1 + 0) * 256 + j.val = j.val
    omega)

/-- A row vector given two more leading unit axes: entry `(0, 0, j)` of the [1, 1, 256] block is entry `(0, j)` of the row. -/
theorem unflatten_1a_11a_apply (v : FVec Ideal S1x256 .f32) (u u' : Fin 1) (j : Fin 256) :
    shapeCast S1x1x256 v shapeCasts_S1x256_S1x1x256 (ix3 u u' j) = v (ix2 (0 : Fin 1) j) :=
  shapeCast_apply v shapeCasts_S1x256_S1x1x256 _ _ (by
    have hu : u.val = 0 := by omega
    have hu' : u'.val = 0 := by omega
    rw [Shape.rowMajor_val_three, Shape.rowMajor_val_two]
    show 0 * 256 + j.val = (u.val * 1 + u'.val) * 256 + j.val
    rw [hu, hu'])

/-- A bias vector over the 256 units, spread over the 512 rows: entry `(p, o)` is the bias of unit `o`. -/
theorem bias_apply (v : FVec Ideal S256 .f32) (p : Fin 512) (o : Fin 256) :
    broadcastTo S512x256 (shapeCast S1x256 v shapeCasts_S256_S1x256) broadcasts_S1x256_S512x256 (ix2 p o) = v (ix1 o) := by
  rw [broadcastTo_1b_ab_apply, shapeCast_a_1a_apply]

/-- The last of the 512 rows cut out as a one-row block: entry `(0, o)` is entry `(511, o)`. -/
theorem lastRow_apply (v : FVec Ideal S512x256 .f32) (u : Fin 1) (o : Fin 256) :
    extractStridedSlice S1x256 ![511, 0] v slices_S512x256_o511_0_S1x256 (ix2 u o) = v (ix2 (⟨511, by decide⟩ : Fin 512) o) :=
  slice2_axis0_apply 511 v slices_S512x256_o511_0_S1x256 u o ⟨511, by decide⟩ (by have := u.isLt; show 511 = 511 + u.val; omega)

/-! ## Two blocks joined along the columns -/

/-- The context block `[x, s]`: row `p` is the 1024 inputs of row `p` followed by the 256 state entries of row `p`. -/
theorem join_ctx_apply (a : FVec Ideal S512x1024 .bf16) (b : FVec Ideal S512x256 .bf16) (p : Fin 512) (k : Fin 1280) :
    concatenate S512x1280 1 [⟨S512x1024, a⟩, ⟨S512x256, b⟩] concatenates_S512x1024_S512x256_S512x1280_d1 (ix2 p k)
      = Cert.RowSpec.cat (fun i : Fin 1024 => a (ix2 p i)) (fun j : Fin 256 => b (ix2 p j)) k := by
  by_cases h : k.val < 1024
  · rw [Cert.RowSpec.cat_left _ _ _ h]
    exact concatenate_pair_apply_left (1 : Fin S512x1280.rank) a b concatenates_S512x1024_S512x256_S512x1280_d1 (ix2 p k) rfl
      (ix2 p ⟨k.val, h⟩) (fun c => by match c with | ⟨0, _⟩ => rfl | ⟨1, _⟩ => rfl)
  · have h2 : k.val - 1024 < 256 := by have := k.isLt; omega
    rw [Cert.RowSpec.cat_right _ _ _ (Nat.not_lt.1 h) h2]
    exact concatenate_pair_apply_right (1 : Fin S512x1280.rank) a b concatenates_S512x1024_S512x256_S512x1280_d1 (ix2 p k) rfl rfl
      (ix2 p ⟨k.val - 1024, h2⟩) (fun c hc => by match c, hc with | ⟨0, _⟩, _ => rfl | ⟨1, _⟩, hc => exact absurd rfl hc)
      (by show (k.val - 1024) + 1024 = k.val; omega)

/-- The perturbation input `[s_pred, s]`: row `p` is the 256 predicted-state entries followed by the 256 state entries. -/
theorem join_pp_apply (a b : FVec Ideal S512x256 .bf16) (p : Fin 512) (k : Fin 512) :
    concatenate S512x512 1 [⟨S512x256, a⟩, ⟨S512x256, b⟩] concatenates_S512x256_S512x256_S512x512_d1 (ix2 p k)
      = Cert.RowSpec.cat (fun i : Fin 256 => a (ix2 p i)) (fun j : Fin 256 => b (ix2 p j)) k := by
  by_cases h : k.val < 256
  · rw [Cert.RowSpec.cat_left _ _ _ h]
    exact concatenate_pair_apply_left (1 : Fin S512x512.rank) a b concatenates_S512x256_S512x256_S512x512_d1 (ix2 p k) rfl
      (ix2 p ⟨k.val, h⟩) (fun c => by match c with | ⟨0, _⟩ => rfl | ⟨1, _⟩ => rfl)
  · have h2 : k.val - 256 < 256 := by have := k.isLt; omega
    rw [Cert.RowSpec.cat_right _ _ _ (Nat.not_lt.1 h) h2]
    exact concatenate_pair_apply_right (1 : Fin S512x512.rank) a b concatenates_S512x256_S512x256_S512x512_d1 (ix2 p k) rfl rfl
      (ix2 p ⟨k.val - 256, h2⟩) (fun c hc => by match c, hc with | ⟨0, _⟩, _ => rfl | ⟨1, _⟩, hc => exact absurd rfl hc)
      (by show (k.val - 256) + 256 = k.val; omega)

/-! ## The five matrix products

Each is a `[512, K] × [K, N]` product contracting the left operand's columns with the right operand's rows, no batch
axis, into a zero accumulator: over the extended reals entry `(p, q)` is the plain sum over the `K` positions. -/

theorem mm_x_l0 (j : S512x256.Idx) (k : dot_S512x1024_S1024x256_S512x256_1_0_0_1_n_n.contr.Idx) : (dot_S512x1024_S1024x256_S512x256_1_0_0_1_n_n.lhsIdx j k 0).val = (j 0).val := by
  unfold DotDims.lhsIdx
  rw [dif_neg (show ¬(0 : Fin S512x1024.rank) ∈ dot_S512x1024_S1024x256_S512x256_1_0_0_1_n_n.lhsBatch by decide), dif_pos (show (0 : Fin S512x1024.rank) ∈ dot_S512x1024_S1024x256_S512x256_1_0_0_1_n_n.lhsNonContracting by decide)]
  rfl
theorem mm_x_r1 (j : S512x256.Idx) (k : dot_S512x1024_S1024x256_S512x256_1_0_0_1_n_n.contr.Idx) : (dot_S512x1024_S1024x256_S512x256_1_0_0_1_n_n.rhsIdx j k 1).val = (j 1).val := by
  unfold DotDims.rhsIdx
  rw [dif_neg (show ¬(1 : Fin S1024x256.rank) ∈ dot_S512x1024_S1024x256_S512x256_1_0_0_1_n_n.rhsBatch by decide), dif_pos (show (1 : Fin S1024x256.rank) ∈ dot_S512x1024_S1024x256_S512x256_1_0_0_1_n_n.rhsNonContracting by decide)]
  rfl
/-- An input block times a [1024, 256] weight, accumulated from zero: entry `(p, q)` is `∑ₖ l (p, k) · r (k, q)` over the 1024 contracted positions. -/
theorem mm_x (l : FVec Ideal S512x1024 .bf16) (r : FVec Ideal S1024x256 .bf16) (p : Fin 512) (q : Fin 256) :
    matmul dot_S512x1024_S1024x256_S512x256_1_0_0_1_n_n none l r (constant (F := Ideal) S512x256 .f32 0x00000000#32) (ix2 p q)
      = ∑ k : Fin 1024, l (ix2 p k) * r (ix2 k q) := by
  refine (Ideal.matmul_constant_zero_apply dot_S512x1024_S1024x256_S512x256_1_0_0_1_n_n none l r (ix2 p q)).trans ?_
  rw [← Equiv.sum_comp (contrEquiv1 dot_S512x1024_S1024x256_S512x256_1_0_0_1_n_n 1024 rfl rfl).symm]
  refine Finset.sum_congr rfl fun k _ => ?_
  have hk := contrEquiv1_symm_val dot_S512x1024_S1024x256_S512x256_1_0_0_1_n_n 1024 rfl rfl k
  have el : dot_S512x1024_S1024x256_S512x256_1_0_0_1_n_n.lhsIdx (ix2 p q) ((contrEquiv1 dot_S512x1024_S1024x256_S512x256_1_0_0_1_n_n 1024 rfl rfl).symm k) = ix2 p k := funext fun a => Fin.ext (by
    match a with
    | ⟨0, _⟩ => exact mm_x_l0 _ _
    | ⟨1, _⟩ => exact (dot_S512x1024_S1024x256_S512x256_1_0_0_1_n_n.lhsIdx_val_of_single rfl _ _).trans hk)
  have er : dot_S512x1024_S1024x256_S512x256_1_0_0_1_n_n.rhsIdx (ix2 p q) ((contrEquiv1 dot_S512x1024_S1024x256_S512x256_1_0_0_1_n_n 1024 rfl rfl).symm k) = ix2 k q := funext fun a => Fin.ext (by
    match a with
    | ⟨0, _⟩ => exact (dot_S512x1024_S1024x256_S512x256_1_0_0_1_n_n.rhsIdx_val_of_single rfl _ _).trans hk
    | ⟨1, _⟩ => exact mm_x_r1 _ _)
  rw [el, er]

theorem mm_ctx_l0 (j : S512x256.Idx) (k : dot_S512x1280_S1280x256_S512x256_1_0_0_1_n_n.contr.Idx) : (dot_S512x1280_S1280x256_S512x256_1_0_0_1_n_n.lhsIdx j k 0).val = (j 0).val := by
  unfold DotDims.lhsIdx
  rw [dif_neg (show ¬(0 : Fin S512x1280.rank) ∈ dot_S512x1280_S1280x256_S512x256_1_0_0_1_n_n.lhsBatch by decide), dif_pos (show (0 : Fin S512x1280.rank) ∈ dot_S512x1280_S1280x256_S512x256_1_0_0_1_n_n.lhsNonContracting by decide)]
  rfl
theorem mm_ctx_r1 (j : S512x256.Idx) (k : dot_S512x1280_S1280x256_S512x256_1_0_0_1_n_n.contr.Idx) : (dot_S512x1280_S1280x256_S512x256_1_0_0_1_n_n.rhsIdx j k 1).val = (j 1).val := by
  unfold DotDims.rhsIdx
  rw [dif_neg (show ¬(1 : Fin S1280x256.rank) ∈ dot_S512x1280_S1280x256_S512x256_1_0_0_1_n_n.rhsBatch by decide), dif_pos (show (1 : Fin S1280x256.rank) ∈ dot_S512x1280_S1280x256_S512x256_1_0_0_1_n_n.rhsNonContracting by decide)]
  rfl
/-- The context block times the [1280, 256] decay weight, accumulated from zero: entry `(p, q)` is `∑ₖ l (p, k) · r (k, q)` over the 1280 contracted positions. -/
theorem mm_ctx (l : FVec Ideal S512x1280 .bf16) (r : FVec Ideal S1280x256 .bf16) (p : Fin 512) (q : Fin 256) :
    matmul dot_S512x1280_S1280x256_S512x256_1_0_0_1_n_n none l r (constant (F := Ideal) S512x256 .f32 0x00000000#32) (ix2 p q)
      = ∑ k : Fin 1280, l (ix2 p k) * r (ix2 k q) := by
  refine (Ideal.matmul_constant_zero_apply dot_S512x1280_S1280x256_S512x256_1_0_0_1_n_n none l r (ix2 p q)).trans ?_
  rw [← Equiv.sum_comp (contrEquiv1 dot_S512x1280_S1280x256_S512x256_1_0_0_1_n_n 1280 rfl rfl).symm]
  refine Finset.sum_congr rfl fun k _ => ?_
  have hk := contrEquiv1_symm_val dot_S512x1280_S1280x256_S512x256_1_0_0_1_n_n 1280 rfl rfl k
  have el : dot_S512x1280_S1280x256_S512x256_1_0_0_1_n_n.lhsIdx (ix2 p q) ((contrEquiv1 dot_S512x1280_S1280x256_S512x256_1_0_0_1_n_n 1280 rfl rfl).symm k) = ix2 p k := funext fun a => Fin.ext (by
    match a with
    | ⟨0, _⟩ => exact mm_ctx_l0 _ _
    | ⟨1, _⟩ => exact (dot_S512x1280_S1280x256_S512x256_1_0_0_1_n_n.lhsIdx_val_of_single rfl _ _).trans hk)
  have er : dot_S512x1280_S1280x256_S512x256_1_0_0_1_n_n.rhsIdx (ix2 p q) ((contrEquiv1 dot_S512x1280_S1280x256_S512x256_1_0_0_1_n_n 1280 rfl rfl).symm k) = ix2 k q := funext fun a => Fin.ext (by
    match a with
    | ⟨0, _⟩ => exact (dot_S512x1280_S1280x256_S512x256_1_0_0_1_n_n.rhsIdx_val_of_single rfl _ _).trans hk
    | ⟨1, _⟩ => exact mm_ctx_r1 _ _)
  rw [el, er]

theorem mm_s_l0 (j : S512x256.Idx) (k : dot_S512x256_S256x256_S512x256_1_0_0_1_n_n.contr.Idx) : (dot_S512x256_S256x256_S512x256_1_0_0_1_n_n.lhsIdx j k 0).val = (j 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem mm_s_r1 (j : S512x256.Idx) (k : dot_S512x256_S256x256_S512x256_1_0_0_1_n_n.contr.Idx) : (dot_S512x256_S256x256_S512x256_1_0_0_1_n_n.rhsIdx j k 1).val = (j 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl
/-- The state block times a [256, 256] weight, accumulated from zero: entry `(p, q)` is `∑ₖ l (p, k) · r (k, q)` over the 256 contracted positions. -/
theorem mm_s (l : FVec Ideal S512x256 .bf16) (r : FVec Ideal S256x256 .bf16) (p : Fin 512) (q : Fin 256) :
    matmul dot_S512x256_S256x256_S512x256_1_0_0_1_n_n none l r (constant (F := Ideal) S512x256 .f32 0x00000000#32) (ix2 p q)
      = ∑ k : Fin 256, l (ix2 p k) * r (ix2 k q) := by
  refine (Ideal.matmul_constant_zero_apply dot_S512x256_S256x256_S512x256_1_0_0_1_n_n none l r (ix2 p q)).trans ?_
  rw [← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : dot_S512x256_S256x256_S512x256_1_0_0_1_n_n.lhsIdx (ix2 p q) ((contrEquiv1 dot_S512x256_S256x256_S512x256_1_0_0_1_n_n 256 rfl rfl).symm k) = ix2 p k := funext fun a => Fin.ext (by
    match a with
    | ⟨0, _⟩ => exact mm_s_l0 _ _
    | ⟨1, _⟩ => exact (dot_S512x256_S256x256_S512x256_1_0_0_1_n_n.lhsIdx_val_of_single rfl _ _).trans hk)
  have er : dot_S512x256_S256x256_S512x256_1_0_0_1_n_n.rhsIdx (ix2 p q) ((contrEquiv1 dot_S512x256_S256x256_S512x256_1_0_0_1_n_n 256 rfl rfl).symm k) = ix2 k q := funext fun a => Fin.ext (by
    match a with
    | ⟨0, _⟩ => exact (dot_S512x256_S256x256_S512x256_1_0_0_1_n_n.rhsIdx_val_of_single rfl _ _).trans hk
    | ⟨1, _⟩ => exact mm_s_r1 _ _)
  rw [el, er]

theorem mm_pp_l0 (j : S512x256.Idx) (k : dot_S512x512_S512x256_S512x256_1_0_0_1_n_n.contr.Idx) : (dot_S512x512_S512x256_S512x256_1_0_0_1_n_n.lhsIdx j k 0).val = (j 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl
theorem mm_pp_r1 (j : S512x256.Idx) (k : dot_S512x512_S512x256_S512x256_1_0_0_1_n_n.contr.Idx) : (dot_S512x512_S512x256_S512x256_1_0_0_1_n_n.rhsIdx j k 1).val = (j 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl
/-- The perturbation input block times the [512, 256] weight, accumulated from zero: entry `(p, q)` is `∑ₖ l (p, k) · r (k, q)` over the 512 contracted positions. -/
theorem mm_pp (l : FVec Ideal S512x512 .bf16) (r : FVec Ideal S512x256 .bf16) (p : Fin 512) (q : Fin 256) :
    matmul dot_S512x512_S512x256_S512x256_1_0_0_1_n_n none l r (constant (F := Ideal) S512x256 .f32 0x00000000#32) (ix2 p q)
      = ∑ k : Fin 512, l (ix2 p k) * r (ix2 k q) := by
  refine (Ideal.matmul_constant_zero_apply dot_S512x512_S512x256_S512x256_1_0_0_1_n_n none l r (ix2 p q)).trans ?_
  rw [← Equiv.sum_comp (contrEquiv1 dot_S512x512_S512x256_S512x256_1_0_0_1_n_n 512 rfl rfl).symm]
  refine Finset.sum_congr rfl fun k _ => ?_
  have hk := contrEquiv1_symm_val dot_S512x512_S512x256_S512x256_1_0_0_1_n_n 512 rfl rfl k
  have el : dot_S512x512_S512x256_S512x256_1_0_0_1_n_n.lhsIdx (ix2 p q) ((contrEquiv1 dot_S512x512_S512x256_S512x256_1_0_0_1_n_n 512 rfl rfl).symm k) = ix2 p k := funext fun a => Fin.ext (by
    match a with
    | ⟨0, _⟩ => exact mm_pp_l0 _ _
    | ⟨1, _⟩ => exact (dot_S512x512_S512x256_S512x256_1_0_0_1_n_n.lhsIdx_val_of_single rfl _ _).trans hk)
  have er : dot_S512x512_S512x256_S512x256_1_0_0_1_n_n.rhsIdx (ix2 p q) ((contrEquiv1 dot_S512x512_S512x256_S512x256_1_0_0_1_n_n 512 rfl rfl).symm k) = ix2 k q := funext fun a => Fin.ext (by
    match a with
    | ⟨0, _⟩ => exact (dot_S512x512_S512x256_S512x256_1_0_0_1_n_n.rhsIdx_val_of_single rfl _ _).trans hk
    | ⟨1, _⟩ => exact mm_pp_r1 _ _)
  rw [el, er]

theorem mm_out_l0 (j : S512x1024.Idx) (k : dot_S512x256_S256x1024_S512x1024_1_0_0_1_n_n.contr.Idx) : (dot_S512x256_S256x1024_S512x1024_1_0_0_1_n_n.lhsIdx j k 0).val = (j 0).val := by
  unfold DotDims.lhsIdx
  rw [dif_neg (show ¬(0 : Fin S512x256.rank) ∈ dot_S512x256_S256x1024_S512x1024_1_0_0_1_n_n.lhsBatch by decide), dif_pos (show (0 : Fin S512x256.rank) ∈ dot_S512x256_S256x1024_S512x1024_1_0_0_1_n_n.lhsNonContracting by decide)]
  rfl
theorem mm_out_r1 (j : S512x1024.Idx) (k : dot_S512x256_S256x1024_S512x1024_1_0_0_1_n_n.contr.Idx) : (dot_S512x256_S256x1024_S512x1024_1_0_0_1_n_n.rhsIdx j k 1).val = (j 1).val := by
  unfold DotDims.rhsIdx
  rw [dif_neg (show ¬(1 : Fin S256x1024.rank) ∈ dot_S512x256_S256x1024_S512x1024_1_0_0_1_n_n.rhsBatch by decide), dif_pos (show (1 : Fin S256x1024.rank) ∈ dot_S512x256_S256x1024_S512x1024_1_0_0_1_n_n.rhsNonContracting by decide)]
  rfl
/-- The hidden block times the [256, 1024] output weight, accumulated from zero: entry `(p, q)` is `∑ₖ l (p, k) · r (k, q)` over the 256 contracted positions. -/
theorem mm_out (l : FVec Ideal S512x256 .bf16) (r : FVec Ideal S256x1024 .bf16) (p : Fin 512) (q : Fin 1024) :
    matmul dot_S512x256_S256x1024_S512x1024_1_0_0_1_n_n none l r (constant (F := Ideal) S512x1024 .f32 0x00000000#32) (ix2 p q)
      = ∑ k : Fin 256, l (ix2 p k) * r (ix2 k q) := by
  refine (Ideal.matmul_constant_zero_apply dot_S512x256_S256x1024_S512x1024_1_0_0_1_n_n none l r (ix2 p q)).trans ?_
  rw [← Equiv.sum_comp (contrEquiv1 dot_S512x256_S256x1024_S512x1024_1_0_0_1_n_n 256 rfl rfl).symm]
  refine Finset.sum_congr rfl fun k _ => ?_
  have hk := contrEquiv1_symm_val dot_S512x256_S256x1024_S512x1024_1_0_0_1_n_n 256 rfl rfl k
  have el : dot_S512x256_S256x1024_S512x1024_1_0_0_1_n_n.lhsIdx (ix2 p q) ((contrEquiv1 dot_S512x256_S256x1024_S512x1024_1_0_0_1_n_n 256 rfl rfl).symm k) = ix2 p k := funext fun a => Fin.ext (by
    match a with
    | ⟨0, _⟩ => exact mm_out_l0 _ _
    | ⟨1, _⟩ => exact (dot_S512x256_S256x1024_S512x1024_1_0_0_1_n_n.lhsIdx_val_of_single rfl _ _).trans hk)
  have er : dot_S512x256_S256x1024_S512x1024_1_0_0_1_n_n.rhsIdx (ix2 p q) ((contrEquiv1 dot_S512x256_S256x1024_S512x1024_1_0_0_1_n_n 256 rfl rfl).symm k) = ix2 k q := funext fun a => Fin.ext (by
    match a with
    | ⟨0, _⟩ => exact (dot_S512x256_S256x1024_S512x1024_1_0_0_1_n_n.rhsIdx_val_of_single rfl _ _).trans hk
    | ⟨1, _⟩ => exact mm_out_r1 _ _)
  rw [el, er]

end Cert.BlockOps

end
-- ==== Proof.KernelRow.lean ====
import proofs.«102208_j39900246180109_2_alg».proof.Proof.BlockOps

/-!
# One grid point's two stores are the row function, row by row

At a grid point the body loads the [1, 512, 1024] input block `x0`, the [1, 1, 256] state block `x1` and the fourteen
parameter blocks `x2 … x15` (each weight already transposed to (input unit, output unit) and stored whole), and stores

* into the output block, the [512, 256] hidden block times the output weight, and
* at the last time tile only, row 511 of the hidden block.

Read at row `p`, the hidden block is `RowSpec.hRow` of row `p` of `x0` and the one row of `x1`, with the weights
read off the blocks (`blockParams`): every matrix product contracts row `p` only, every bias and the state row are
spread over the rows, and the two joined blocks are joined row by row. So the stored output block at `(0, p, q)` is
`RowSpec.outRow … q` of those rows, and the stored last row at `(0, 0, o)` is `RowSpec.hRow … o` of row 511.
-/

set_option maxRecDepth 16384

noncomputable section

namespace Cert.KernelRow

open Idealize.ShloMosaic Idealize.ShloMosaic.ValueIdx Cert.KernelIdeal Cert.KernelIdeal.Gen Cert.KernelIdeal.Facts₀ Cert.KernelIdeal.Facts
open Cert.BlockOps Cert.RowSpec

/-- The weights and biases as the body finds them in its blocks: a weight block is laid out (input unit, output unit),
    so unit `o`'s weight row is column `o` of the block. -/
def blockParams (x2 x3 : FVec Ideal S1024x256 .bf16) (x4 : FVec Ideal S256x256 .bf16) (x5 : FVec Ideal S256x1024 .bf16)
    (x6 : FVec Ideal S1024x256 .bf16) (x7 : FVec Ideal S256 .f32) (x8 : FVec Ideal S256x256 .bf16) (x9 : FVec Ideal S256 .f32)
    (x10 : FVec Ideal S1280x256 .bf16) (x11 : FVec Ideal S256 .f32) (x12 : FVec Ideal S512x256 .bf16) (x13 : FVec Ideal S256 .f32)
    (x14 : FVec Ideal S256x256 .bf16) (x15 : FVec Ideal S256 .f32) : Params where
  Win o i := x2 (ix2 i o)
  Wx o i := x3 (ix2 i o)
  Ws o i := x4 (ix2 i o)
  Wout q k := x5 (ix2 k q)
  Wgx o i := x6 (ix2 i o)
  bgx o := x7 (ix1 o)
  Wgs o i := x8 (ix2 i o)
  bgs o := x9 (ix1 o)
  Wdc o k := x10 (ix2 k o)
  bdc o := x11 (ix1 o)
  Wpp o k := x12 (ix2 k o)
  bpp o := x13 (ix1 o)
  Wpg o i := x14 (ix2 i o)
  bpg o := x15 (ix1 o)

/-- The input block without its leading unit axis (and in the narrower float format, which changes nothing here). -/
theorem pay3_apply (x0 : Vec Ideal S1x512x1024 .f32) (p : Fin 512) (i : Fin 1024) :
    k0_pay3 (F := Ideal) x0 (ix2 p i) = x0 (ix3 (0 : Fin 1) p i) := by
  unfold k0_pay3
  exact shapeCast_1ab_ab_apply x0 Facts₀.shapeCasts_S1x512x1024_S512x1024 p i

/-- The state row spread over the 512 rows: entry `(p, j)` is the state's entry `j`. -/
theorem pay4_apply (x1 : Vec Ideal S1x1x256 .f32) (p : Fin 512) (j : Fin 256) :
    k0_pay4 (F := Ideal) x1 (ix2 p j) = x1 (ix3 (0 : Fin 1) (0 : Fin 1) j) := by
  unfold k0_pay4
  simp only [broadcastTo_1b_ab_apply, shapeCast_self, shapeCast_a_1a_apply, flatten_11a_apply]

theorem pay5_apply (x1 : Vec Ideal S1x1x256 .f32) (p : Fin 512) (j : Fin 256) :
    k0_pay5 (F := Ideal) x1 (ix2 p j) = x1 (ix3 (0 : Fin 1) (0 : Fin 1) j) := by
  unfold k0_pay5
  exact pay4_apply x1 p j

/-- `x · W_x` at row `p`, unit `o`. -/
theorem pay6_apply (x0 : Vec Ideal S1x512x1024 .f32) (x3 : Vec Ideal S1024x256 .bf16) (p : Fin 512) (o : Fin 256) :
    k0_pay6 (F := Ideal) x0 x3 (ix2 p o) = dot (fun i : Fin 1024 => x0 (ix3 (0 : Fin 1) p i)) (fun i => x3 (ix2 i o)) := by
  unfold k0_pay6
  simp only [mm_x, pay3_apply, shapeCast_self, dot]

/-- `s · W_s` at row `p`, unit `o`. -/
theorem pay7_apply (x1 : Vec Ideal S1x1x256 .f32) (x4 : Vec Ideal S256x256 .bf16) (p : Fin 512) (o : Fin 256) :
    k0_pay7 (F := Ideal) x1 x4 (ix2 p o) = dot (fun j : Fin 256 => x1 (ix3 (0 : Fin 1) (0 : Fin 1) j)) (fun j => x4 (ix2 j o)) := by
  unfold k0_pay7
  simp only [mm_s, pay5_apply, shapeCast_self, dot]

/-- `s · decay + x · W_in` at row `p`, unit `o`. -/
theorem pay8_apply (x0 : Vec Ideal S1x512x1024 .f32) (x1 : Vec Ideal S1x1x256 .f32) (x2 : Vec Ideal S1024x256 .bf16)
    (x10 : Vec Ideal S1280x256 .bf16) (x11 : Vec Ideal S256 .f32) (p : Fin 512) (o : Fin 256) :
    k0_pay8 (F := Ideal) x0 x1 x2 x10 x11 (ix2 p o)
      = x1 (ix3 (0 : Fin 1) (0 : Fin 1) o)
          * Ideal.exp (negTwentieth * min one (max zero (Ideal.logistic
              (dot (cat (fun i : Fin 1024 => x0 (ix3 (0 : Fin 1) p i)) (fun j : Fin 256 => x1 (ix3 (0 : Fin 1) (0 : Fin 1) j)) : Fin 1280 → EReal)
                  (fun k => x10 (ix2 k o)) + x11 (ix1 o)))))
        + dot (fun i : Fin 1024 => x0 (ix3 (0 : Fin 1) p i)) (fun i => x2 (ix2 i o)) := by
  unfold k0_pay8
  simp only [addf_apply, mulf_apply, exp_apply, logistic_apply, maximumf_apply, minimumf_apply, broadcast_apply,
    scalar_ofBits, mm_x, mm_ctx, join_ctx_apply, bias_apply, pay3_apply, pay4_apply, pay5_apply, shapeCast_self, dot]

/-- The hidden block at row `p`, unit `o`, is the row function's hidden row of row `p`. -/
theorem hidden_apply (x0 : Vec Ideal S1x512x1024 .f32) (x1 : Vec Ideal S1x1x256 .f32) (x2 : Vec Ideal S1024x256 .bf16) (x3 : Vec Ideal S1024x256 .bf16) (x4 : Vec Ideal S256x256 .bf16) (x5 : Vec Ideal S256x1024 .bf16) (x6 : Vec Ideal S1024x256 .bf16) (x7 : Vec Ideal S256 .f32) (x8 : Vec Ideal S256x256 .bf16) (x9 : Vec Ideal S256 .f32) (x10 : Vec Ideal S1280x256 .bf16) (x11 : Vec Ideal S256 .f32) (x12 : Vec Ideal S512x256 .bf16) (x13 : Vec Ideal S256 .f32) (x14 : Vec Ideal S256x256 .bf16) (x15 : Vec Ideal S256 .f32) (p : Fin 512) (o : Fin 256) :
    k0_pay9 (F := Ideal) (k0_pay3 x0) (k0_pay5 x1) (k0_pay6 x0 x3) (k0_pay7 x1 x4) (k0_pay8 x0 x1 x2 x10 x11) x12 x13 x14 x15 x6 x7 x8 x9 (ix2 p o)
      = hRow (blockParams x2 x3 x4 x5 x6 x7 x8 x9 x10 x11 x12 x13 x14 x15)
          (fun i : Fin 1024 => x0 (ix3 (0 : Fin 1) p i)) (fun j : Fin 256 => x1 (ix3 (0 : Fin 1) (0 : Fin 1) j)) o := by
  unfold k0_pay9
  simp only [addf_apply, mulf_apply, tanh_apply, logistic_apply, broadcast_apply, truncf_apply, scalar_ofBits,
    mm_x, mm_s, mm_pp, join_pp_apply, bias_apply, pay3_apply, pay5_apply, pay6_apply, pay7_apply, pay8_apply, shapeCast_self,
    hRow, sCorr, sPred, decay, dot, blockParams]

/-- The stored output block at `(0, p, q)`: the row function's output row of row `p`, at `q`. -/
theorem out_apply (x0 : Vec Ideal S1x512x1024 .f32) (x1 : Vec Ideal S1x1x256 .f32) (x2 : Vec Ideal S1024x256 .bf16) (x3 : Vec Ideal S1024x256 .bf16) (x4 : Vec Ideal S256x256 .bf16) (x5 : Vec Ideal S256x1024 .bf16) (x6 : Vec Ideal S1024x256 .bf16) (x7 : Vec Ideal S256 .f32) (x8 : Vec Ideal S256x256 .bf16) (x9 : Vec Ideal S256 .f32) (x10 : Vec Ideal S1280x256 .bf16) (x11 : Vec Ideal S256 .f32) (x12 : Vec Ideal S512x256 .bf16) (x13 : Vec Ideal S256 .f32) (x14 : Vec Ideal S256x256 .bf16) (x15 : Vec Ideal S256 .f32) (u : Fin 1) (p : Fin 512) (q : Fin 1024) :
    k0_pay1 (F := Ideal) (k0_pay10 (k0_pay3 x0) (k0_pay5 x1) (k0_pay6 x0 x3) (k0_pay7 x1 x4) (k0_pay8 x0 x1 x2 x10 x11) x12 x13 x14 x15 x6 x7 x8 x9) x5 (ix3 u p q)
      = outRow (blockParams x2 x3 x4 x5 x6 x7 x8 x9 x10 x11 x12 x13 x14 x15)
          (fun i : Fin 1024 => x0 (ix3 (0 : Fin 1) p i)) (fun j : Fin 256 => x1 (ix3 (0 : Fin 1) (0 : Fin 1) j)) q := by
  unfold k0_pay1 k0_pay10
  rw [shapeCast_ab_1ab_apply]
  simp only [mm_out, truncf_apply, shapeCast_self]
  unfold outRow dot
  refine Finset.sum_congr rfl fun k _ => ?_
  rw [hidden_apply]
  rfl

/-- The stored last row at `(0, 0, o)`: the row function's hidden row of row 511. -/
theorem last_apply (x0 : Vec Ideal S1x512x1024 .f32) (x1 : Vec Ideal S1x1x256 .f32) (x2 : Vec Ideal S1024x256 .bf16) (x3 : Vec Ideal S1024x256 .bf16) (x4 : Vec Ideal S256x256 .bf16) (x5 : Vec Ideal S256x1024 .bf16) (x6 : Vec Ideal S1024x256 .bf16) (x7 : Vec Ideal S256 .f32) (x8 : Vec Ideal S256x256 .bf16) (x9 : Vec Ideal S256 .f32) (x10 : Vec Ideal S1280x256 .bf16) (x11 : Vec Ideal S256 .f32) (x12 : Vec Ideal S512x256 .bf16) (x13 : Vec Ideal S256 .f32) (x14 : Vec Ideal S256x256 .bf16) (x15 : Vec Ideal S256 .f32) (u u' : Fin 1) (o : Fin 256) :
    k0_pay2 (F := Ideal) (k0_pay9 (k0_pay3 x0) (k0_pay5 x1) (k0_pay6 x0 x3) (k0_pay7 x1 x4) (k0_pay8 x0 x1 x2 x10 x11) x12 x13 x14 x15 x6 x7 x8 x9) (ix3 u u' o)
      = hRow (blockParams x2 x3 x4 x5 x6 x7 x8 x9 x10 x11 x12 x13 x14 x15)
          (fun i : Fin 1024 => x0 (ix3 (0 : Fin 1) (⟨511, by decide⟩ : Fin 512) i)) (fun j : Fin 256 => x1 (ix3 (0 : Fin 1) (0 : Fin 1) j)) o := by
  unfold k0_pay2
  rw [unflatten_1a_11a_apply, lastRow_apply, hidden_apply]

end Cert.KernelRow

end
-- ==== Proof.CasePieces.lean ====
import proofs.«102208_j39900246180109_2_alg».proof.Proof.Gen.KernelIdeal.Frame
import Idealize.ShloMosaic.Lib.Pipeline.Value
import Idealize.ShloMosaic.Lib.Tactic

/-!
# What each control case leaves in the two output buffers

The body has one conditional: at the last of a batch entry's four time tiles it also stores the last hidden row. In both
cases it overwrites the whole [1, 512, 1024] output buffer with one store; in the last-tile case it overwrites the
whole [1, 1, 256] last-row buffer with one store. A buffer overwritten whole by one store holds that store's value, and
every load of the body reads a whole input buffer. So the output buffer ends holding the hidden block times the output
weight, and in the last-tile case the last-row buffer ends holding row 511 of the hidden block — each as the body's
arithmetic applied to the sixteen input blocks. This holds at any float instance.
-/

set_option maxRecDepth 16384

noncomputable section

namespace Cert.CasePieces

open Idealize.ShloMosaic Idealize.ShloMosaic.TcCoe Idealize.SL.Sem Idealize.ShloMosaic.Tactic
open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The hidden block of a grid point, as the body's arithmetic of the input blocks. -/
abbrev hiddenOf (x0 : Vec F S1x512x1024 .f32) (x1 : Vec F S1x1x256 .f32) (x2 : Vec F S1024x256 .bf16) (x3 : Vec F S1024x256 .bf16) (x4 : Vec F S256x256 .bf16) (x5 : Vec F S256x1024 .bf16) (x6 : Vec F S1024x256 .bf16) (x7 : Vec F S256 .f32) (x8 : Vec F S256x256 .bf16) (x9 : Vec F S256 .f32) (x10 : Vec F S1280x256 .bf16) (x11 : Vec F S256 .f32) (x12 : Vec F S512x256 .bf16) (x13 : Vec F S256 .f32) (x14 : Vec F S256x256 .bf16) (x15 : Vec F S256 .f32) : FVec F S512x256 .f32 :=
  k0_pay9 (k0_pay3 x0) (k0_pay5 x1) (k0_pay6 x0 x3) (k0_pay7 x1 x4) (k0_pay8 x0 x1 x2 x10 x11) x12 x13 x14 x15 x6 x7 x8 x9

/-- The output block of a grid point: the hidden block (narrowed) times the output weight block. -/
abbrev outOf (x0 : Vec F S1x512x1024 .f32) (x1 : Vec F S1x1x256 .f32) (x2 : Vec F S1024x256 .bf16) (x3 : Vec F S1024x256 .bf16) (x4 : Vec F S256x256 .bf16) (x5 : Vec F S256x1024 .bf16) (x6 : Vec F S1024x256 .bf16) (x7 : Vec F S256 .f32) (x8 : Vec F S256x256 .bf16) (x9 : Vec F S256 .f32) (x10 : Vec F S1280x256 .bf16) (x11 : Vec F S256 .f32) (x12 : Vec F S512x256 .bf16) (x13 : Vec F S256 .f32) (x14 : Vec F S256x256 .bf16) (x15 : Vec F S256 .f32) : FVec F S1x512x1024 .f32 :=
  k0_pay1 (k0_pay10 (k0_pay3 x0) (k0_pay5 x1) (k0_pay6 x0 x3) (k0_pay7 x1 x4) (k0_pay8 x0 x1 x2 x10 x11) x12 x13 x14 x15 x6 x7 x8 x9) x5

/-- Away from the last time tile the output buffer ends holding the point's output block. -/
theorem out_A_16 (c : Dev nD) (i : grid0.Coords) (arg2 : Memref sig .tc .vmem S1x512x1024 .f32) (harg2 : arg2.IsWhole) (arg3 : Memref sig .tc .vmem S1x1x256 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S256x256 .bf16) (harg6 : arg6.IsWhole) (arg7 : Memref sig .tc .vmem S256x1024 .bf16) (harg7 : arg7.IsWhole) (arg8 : Memref sig .tc .vmem S1024x256 .bf16) (harg8 : arg8.IsWhole) (arg9 : Memref sig .tc .vmem S256 .f32) (harg9 : arg9.IsWhole) (arg10 : Memref sig .tc .vmem S256x256 .bf16) (harg10 : arg10.IsWhole) (arg11 : Memref sig .tc .vmem S256 .f32) (harg11 : arg11.IsWhole) (arg12 : Memref sig .tc .vmem S1280x256 .bf16) (harg12 : arg12.IsWhole) (arg13 : Memref sig .tc .vmem S256 .f32) (harg13 : arg13.IsWhole) (arg14 : Memref sig .tc .vmem S512x256 .bf16) (harg14 : arg14.IsWhole) (arg15 : Memref sig .tc .vmem S256 .f32) (harg15 : arg15.IsWhole) (arg16 : Memref sig .tc .vmem S256x256 .bf16) (harg16 : arg16.IsWhole) (arg17 : Memref sig .tc .vmem S256 .f32) (harg17 : arg17.IsWhole) (arg18 : Memref sig .tc .vmem S1x512x1024 .f32) (harg18 : arg18.IsWhole) (arg19 : Memref sig .tc .vmem S1x1x256 .f32) (harg19 : arg19.IsWhole) (hc0 : ¬cond0_0 i) (x0 : Vec F S1x512x1024 .f32) (x1 : Vec F S1x1x256 .f32) (x2 : Vec F S1024x256 .bf16) (x3 : Vec F S1024x256 .bf16) (x4 : Vec F S256x256 .bf16) (x5 : Vec F S256x1024 .bf16) (x6 : Vec F S1024x256 .bf16) (x7 : Vec F S256 .f32) (x8 : Vec F S256x256 .bf16) (x9 : Vec F S256 .f32) (x10 : Vec F S1280x256 .bf16) (x11 : Vec F S256 .f32) (x12 : Vec F S512x256 .bf16) (x13 : Vec F S256 .f32) (x14 : Vec F S256x256 .bf16) (x15 : Vec F S256 .f32) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15 = outOf x0 x1 x2 x3 x4 x5 x6 x7 x8 x9 x10 x11 x12 x13 x14 x15 := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S1x512x1024) hz3, View.ld_unit_zero (S := S1x1x256) hz3,
    View.ld_unit_zero (S := S1024x256) hz2, View.ld_unit_zero (S := S256x256) hz2, View.ld_unit_zero (S := S256x1024) hz2,
    View.ld_unit_zero (S := S1280x256) hz2, View.ld_unit_zero (S := S512x256) hz2, View.ld_unit_zero (S := S256) hz1]

/-- At the last time tile the output buffer ends holding the point's output block too. -/
theorem out_B_16 (c : Dev nD) (i : grid0.Coords) (arg2 : Memref sig .tc .vmem S1x512x1024 .f32) (harg2 : arg2.IsWhole) (arg3 : Memref sig .tc .vmem S1x1x256 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S256x256 .bf16) (harg6 : arg6.IsWhole) (arg7 : Memref sig .tc .vmem S256x1024 .bf16) (harg7 : arg7.IsWhole) (arg8 : Memref sig .tc .vmem S1024x256 .bf16) (harg8 : arg8.IsWhole) (arg9 : Memref sig .tc .vmem S256 .f32) (harg9 : arg9.IsWhole) (arg10 : Memref sig .tc .vmem S256x256 .bf16) (harg10 : arg10.IsWhole) (arg11 : Memref sig .tc .vmem S256 .f32) (harg11 : arg11.IsWhole) (arg12 : Memref sig .tc .vmem S1280x256 .bf16) (harg12 : arg12.IsWhole) (arg13 : Memref sig .tc .vmem S256 .f32) (harg13 : arg13.IsWhole) (arg14 : Memref sig .tc .vmem S512x256 .bf16) (harg14 : arg14.IsWhole) (arg15 : Memref sig .tc .vmem S256 .f32) (harg15 : arg15.IsWhole) (arg16 : Memref sig .tc .vmem S256x256 .bf16) (harg16 : arg16.IsWhole) (arg17 : Memref sig .tc .vmem S256 .f32) (harg17 : arg17.IsWhole) (arg18 : Memref sig .tc .vmem S1x512x1024 .f32) (harg18 : arg18.IsWhole) (arg19 : Memref sig .tc .vmem S1x1x256 .f32) (harg19 : arg19.IsWhole) (hc0 : cond0_0 i) (x0 : Vec F S1x512x1024 .f32) (x1 : Vec F S1x1x256 .f32) (x2 : Vec F S1024x256 .bf16) (x3 : Vec F S1024x256 .bf16) (x4 : Vec F S256x256 .bf16) (x5 : Vec F S256x1024 .bf16) (x6 : Vec F S1024x256 .bf16) (x7 : Vec F S256 .f32) (x8 : Vec F S256x256 .bf16) (x9 : Vec F S256 .f32) (x10 : Vec F S1280x256 .bf16) (x11 : Vec F S256 .f32) (x12 : Vec F S512x256 .bf16) (x13 : Vec F S256 .f32) (x14 : Vec F S256x256 .bf16) (x15 : Vec F S256 .f32) :
    out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15 = outOf x0 x1 x2 x3 x4 x5 x6 x7 x8 x9 x10 x11 x12 x13 x14 x15 := by
  unfold out0_B_16
  rw [View.read_writes_eq_canon _ _ _ (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S1x512x1024) hz3, View.ld_unit_zero (S := S1x1x256) hz3,
    View.ld_unit_zero (S := S1024x256) hz2, View.ld_unit_zero (S := S256x256) hz2, View.ld_unit_zero (S := S256x1024) hz2,
    View.ld_unit_zero (S := S1280x256) hz2, View.ld_unit_zero (S := S512x256) hz2, View.ld_unit_zero (S := S256) hz1]

/-- At the last time tile the last-row buffer ends holding row 511 of the point's hidden block. -/
theorem out_B_17 (c : Dev nD) (i : grid0.Coords) (arg2 : Memref sig .tc .vmem S1x512x1024 .f32) (harg2 : arg2.IsWhole) (arg3 : Memref sig .tc .vmem S1x1x256 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S256x256 .bf16) (harg6 : arg6.IsWhole) (arg7 : Memref sig .tc .vmem S256x1024 .bf16) (harg7 : arg7.IsWhole) (arg8 : Memref sig .tc .vmem S1024x256 .bf16) (harg8 : arg8.IsWhole) (arg9 : Memref sig .tc .vmem S256 .f32) (harg9 : arg9.IsWhole) (arg10 : Memref sig .tc .vmem S256x256 .bf16) (harg10 : arg10.IsWhole) (arg11 : Memref sig .tc .vmem S256 .f32) (harg11 : arg11.IsWhole) (arg12 : Memref sig .tc .vmem S1280x256 .bf16) (harg12 : arg12.IsWhole) (arg13 : Memref sig .tc .vmem S256 .f32) (harg13 : arg13.IsWhole) (arg14 : Memref sig .tc .vmem S512x256 .bf16) (harg14 : arg14.IsWhole) (arg15 : Memref sig .tc .vmem S256 .f32) (harg15 : arg15.IsWhole) (arg16 : Memref sig .tc .vmem S256x256 .bf16) (harg16 : arg16.IsWhole) (arg17 : Memref sig .tc .vmem S256 .f32) (harg17 : arg17.IsWhole) (arg18 : Memref sig .tc .vmem S1x512x1024 .f32) (harg18 : arg18.IsWhole) (arg19 : Memref sig .tc .vmem S1x1x256 .f32) (harg19 : arg19.IsWhole) (hc0 : cond0_0 i) (x0 : Vec F S1x512x1024 .f32) (x1 : Vec F S1x1x256 .f32) (x2 : Vec F S1024x256 .bf16) (x3 : Vec F S1024x256 .bf16) (x4 : Vec F S256x256 .bf16) (x5 : Vec F S256x1024 .bf16) (x6 : Vec F S1024x256 .bf16) (x7 : Vec F S256 .f32) (x8 : Vec F S256x256 .bf16) (x9 : Vec F S256 .f32) (x10 : Vec F S1280x256 .bf16) (x11 : Vec F S256 .f32) (x12 : Vec F S512x256 .bf16) (x13 : Vec F S256 .f32) (x14 : Vec F S256x256 .bf16) (x15 : Vec F S256 .f32) :
    out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15 = k0_pay2 (hiddenOf x0 x1 x2 x3 x4 x5 x6 x7 x8 x9 x10 x11 x12 x13 x14 x15) := by
  unfold out0_B_17
  rw [View.read_writes_eq_canon _ _ _ (cover0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S1x512x1024) hz3, View.ld_unit_zero (S := S1x1x256) hz3,
    View.ld_unit_zero (S := S1024x256) hz2, View.ld_unit_zero (S := S256x256) hz2, View.ld_unit_zero (S := S256x1024) hz2,
    View.ld_unit_zero (S := S1280x256) hz2, View.ld_unit_zero (S := S512x256) hz2, View.ld_unit_zero (S := S256) hz1]

end Cert.CasePieces

end
-- ==== Proof.BlockReads.lean ====
/-
  How the kernel's windows index the arrays: for each window of the one pallas_call on the grid (8, 4), which entries
  of which array the block at a grid point holds. Point `t` is batch entry `t / 4` and time tile `t % 4`. Pure
  index bookkeeping: no arithmetic on values.
-/
import proofs.«102208_j39900246180109_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.BlockReads

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

/-! ## Grid points: batch entry and time tile -/

/-- The batch entry of a grid point: `t / 4`. -/
def bOf (t : Fin cfg0.N) : Fin 8 := ⟨t.val / 4, by have h := t.isLt; have hN : cfg0.N = 32 := N_0; omega⟩

/-- The time step of row `r` of a grid point's tile: `(t % 4) * 512 + r`. -/
def rowOf (t : Fin cfg0.N) (r : Fin 512) : Fin 2048 := ⟨(t.val % 4) * 512 + r.val, by have h := r.isLt; omega⟩

theorem bOf_val (t : Fin cfg0.N) : (bOf t).val = t.val / 4 := rfl
theorem rowOf_val (t : Fin cfg0.N) (r : Fin 512) : (rowOf t r).val = (t.val % 4) * 512 + r.val := rfl

/-! ## The printed index maps, decided once over the grid -/

/-- Window 0 (the input sequence): block index (batch entry, time tile, 0). -/
theorem idx0 : ∀ t : Fin cfg0.N, win0_0.index t (0 : Fin 3) = t.val / 4 ∧ win0_0.index t (1 : Fin 3) = t.val % 4
    ∧ win0_0.index t (2 : Fin 3) = 0 :=
  (by decide +kernel : ∀ t : Fin grid0.N, _)

/-- Window 1 (the incoming state): block index (batch entry, 0, 0). -/
theorem idx1 : ∀ t : Fin cfg0.N, win0_1.index t (0 : Fin 3) = t.val / 4 ∧ win0_1.index t (1 : Fin 3) = 0
    ∧ win0_1.index t (2 : Fin 3) = 0 :=
  (by decide +kernel : ∀ t : Fin grid0.N, _)

/-- Window 16 (the output sequence): block index (batch entry, time tile, 0). -/
theorem idx16 : ∀ t : Fin cfg0.N, win0_16.index t (0 : Fin 3) = t.val / 4 ∧ win0_16.index t (1 : Fin 3) = t.val % 4
    ∧ win0_16.index t (2 : Fin 3) = 0 :=
  (by decide +kernel : ∀ t : Fin grid0.N, _)

/-- Window 17 (the outgoing state): block index (batch entry, 0, 0). -/
theorem idx17 : ∀ t : Fin cfg0.N, win0_17.index t (0 : Fin 3) = t.val / 4 ∧ win0_17.index t (1 : Fin 3) = 0
    ∧ win0_17.index t (2 : Fin 3) = 0 :=
  (by decide +kernel : ∀ t : Fin grid0.N, _)

/-! ## The input sequence and the incoming state -/

/-- Row `r` of the block of the input sequence at point `t` is time step `(t % 4) * 512 + r` of batch entry `t / 4`. -/
theorem x_blk (c : Dev nD) (t : Fin cfg0.N) (r : Fin 512) (i : Fin 1024) :
    (iblk m c 0 t : Vec Ideal S1x512x1024 .f32) (ix3 (0 : Fin 1) r i)
      = m ((c : Thread nD τ).loc main_arg0) (ix3 (bOf t) (rowOf t r) i) := by
  unfold iblk
  rw [View.read_apply]
  show V m c main_arg0 (((cfg0.win 0).blk t).view.emb _) = _
  refine (congrFun (V_main_arg0 m c) _).trans ?_
  obtain ⟨e0, e1, e2⟩ := idx0 t
  refine congrArg _ (funext fun a => Fin.ext ?_)
  match a with
  | ⟨0, _⟩ => show win0_0.index t (0 : Fin 3) * 1 + 1 * 0 = t.val / 4; rw [e0]; omega
  | ⟨1, _⟩ => show win0_0.index t (1 : Fin 3) * 512 + 1 * r.val = (t.val % 4) * 512 + r.val; rw [e1]; omega
  | ⟨2, _⟩ => show win0_0.index t (2 : Fin 3) * 1024 + 1 * i.val = i.val; rw [e2]; omega

/-! ## The whole-array windows: block index 0 on every axis, at every point -/

theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx7 : ∀ t : Fin cfg0.N, win0_7.index t (0 : Fin 1) = 0 :=
  (by decide +kernel : ∀ t : Fin grid0.N, _)
theorem idx9 : ∀ t : Fin cfg0.N, win0_9.index t (0 : Fin 1) = 0 :=
  (by decide +kernel : ∀ t : Fin grid0.N, _)
theorem idx11 : ∀ t : Fin cfg0.N, win0_11.index t (0 : Fin 1) = 0 :=
  (by decide +kernel : ∀ t : Fin grid0.N, _)
theorem idx13 : ∀ t : Fin cfg0.N, win0_13.index t (0 : Fin 1) = 0 :=
  (by decide +kernel : ∀ t : Fin grid0.N, _)
theorem idx15 : ∀ t : Fin cfg0.N, win0_15.index t (0 : Fin 1) = 0 :=
  (by decide +kernel : ∀ t : Fin grid0.N, _)

/-! ## What the host operations before the region leave in the windows' arrays -/

/-- An `[8, 256]` array cast to `[8, 1, 256]` reads, at `(b, u, j)`, the operand at `(b, j)`. -/
theorem shapeCast_mid_unit_apply {α : Type} (x : S8x256.Idx → α) (h : S8x256.ShapeCasts S8x1x256)
    (b : Fin 8) (u : Fin 1) (j : Fin 256) : shapeCast S8x1x256 x h (ix3 b u j) = x (ix2 b j) :=
  shapeCast_apply x h _ _ (by
    have hu : u.val = 0 := by omega
    rw [Shape.rowMajor_val_three, Shape.rowMajor_val_two]
    show b.val * 256 + j.val = (b.val * 1 + u.val) * 256 + j.val
    rw [hu]; omega)

/-- The incoming state's array is the `[8, 256]` argument with a unit axis inserted. -/
theorem V_v18 (c : Dev nD) : (V m c main_v18 : Vec Ideal S8x1x256 .f32)
    = shapeCast S8x1x256 (m ((c : Thread nD τ).loc main_arg1)) shapeCasts_S8x256_S8x1x256 := by
  show StableHlo.after hostOps0 (fun b => m (c, b)) (Proc.devRef .tc main_v18) = _
  after_results
  rfl

/-- Window 2's array is the `[256, 1024]` argument transposed (the conversion to bf16 is the identity on ideal values). -/
theorem V_v1 (c : Dev nD) : (V m c main_v1 : Vec Ideal S1024x256 .bf16)
    = truncf (F := Ideal) .bf16 (transpose S1024x256 [1, 0] (m ((c : Thread nD τ).loc main_arg2)) transposes_S256x1024_S1024x256_1_0) bitsLt_bf16_f32 := by
  show StableHlo.after hostOps0 (fun b => m (c, b)) (Proc.devRef .tc main_v1) = _
  after_results

/-- Window 3's array is the `[256, 1024]` argument transposed (the conversion to bf16 is the identity on ideal values). -/
theorem V_v3 (c : Dev nD) : (V m c main_v3 : Vec Ideal S1024x256 .bf16)
    = truncf (F := Ideal) .bf16 (transpose S1024x256 [1, 0] (m ((c : Thread nD τ).loc main_arg3)) transposes_S256x1024_S1024x256_1_0) bitsLt_bf16_f32 := by
  show StableHlo.after hostOps0 (fun b => m (c, b)) (Proc.devRef .tc main_v3) = _
  after_results

/-- Window 4's array is the `[256, 256]` argument transposed (the conversion to bf16 is the identity on ideal values). -/
theorem V_v5 (c : Dev nD) : (V m c main_v5 : Vec Ideal S256x256 .bf16)
    = truncf (F := Ideal) .bf16 (transpose S256x256 [1, 0] (m ((c : Thread nD τ).loc main_arg4)) transposes_S256x256_S256x256_1_0) bitsLt_bf16_f32 := by
  show StableHlo.after hostOps0 (fun b => m (c, b)) (Proc.devRef .tc main_v5) = _
  after_results

/-- Window 5's array is the `[1024, 256]` argument transposed (the conversion to bf16 is the identity on ideal values). -/
theorem V_v7 (c : Dev nD) : (V m c main_v7 : Vec Ideal S256x1024 .bf16)
    = truncf (F := Ideal) .bf16 (transpose S256x1024 [1, 0] (m ((c : Thread nD τ).loc main_arg5)) transposes_S1024x256_S256x1024_1_0) bitsLt_bf16_f32 := by
  show StableHlo.after hostOps0 (fun b => m (c, b)) (Proc.devRef .tc main_v7) = _
  after_results

/-- Window 6's array is the `[256, 1024]` argument transposed (the conversion to bf16 is the identity on ideal values). -/
theorem V_v9 (c : Dev nD) : (V m c main_v9 : Vec Ideal S1024x256 .bf16)
    = truncf (F := Ideal) .bf16 (transpose S1024x256 [1, 0] (m ((c : Thread nD τ).loc main_arg6)) transposes_S256x1024_S1024x256_1_0) bitsLt_bf16_f32 := by
  show StableHlo.after hostOps0 (fun b => m (c, b)) (Proc.devRef .tc main_v9) = _
  after_results

/-- Window 8's array is the `[256, 256]` argument transposed (the conversion to bf16 is the identity on ideal values). -/
theorem V_v11 (c : Dev nD) : (V m c main_v11 : Vec Ideal S256x256 .bf16)
    = truncf (F := Ideal) .bf16 (transpose S256x256 [1, 0] (m ((c : Thread nD τ).loc main_arg8)) transposes_S256x256_S256x256_1_0) bitsLt_bf16_f32 := by
  show StableHlo.after hostOps0 (fun b => m (c, b)) (Proc.devRef .tc main_v11) = _
  after_results

/-- Window 10's array is the `[256, 1280]` argument transposed (the conversion to bf16 is the identity on ideal values). -/
theorem V_v13 (c : Dev nD) : (V m c main_v13 : Vec Ideal S1280x256 .bf16)
    = truncf (F := Ideal) .bf16 (transpose S1280x256 [1, 0] (m ((c : Thread nD τ).loc main_arg10)) transposes_S256x1280_S1280x256_1_0) bitsLt_bf16_f32 := by
  show StableHlo.after hostOps0 (fun b => m (c, b)) (Proc.devRef .tc main_v13) = _
  after_results

/-- Window 12's array is the `[256, 512]` argument transposed (the conversion to bf16 is the identity on ideal values). -/
theorem V_v15 (c : Dev nD) : (V m c main_v15 : Vec Ideal S512x256 .bf16)
    = truncf (F := Ideal) .bf16 (transpose S512x256 [1, 0] (m ((c : Thread nD τ).loc main_arg12)) transposes_S256x512_S512x256_1_0) bitsLt_bf16_f32 := by
  show StableHlo.after hostOps0 (fun b => m (c, b)) (Proc.devRef .tc main_v15) = _
  after_results

/-- Window 14's array is the `[256, 256]` argument transposed (the conversion to bf16 is the identity on ideal values). -/
theorem V_v17 (c : Dev nD) : (V m c main_v17 : Vec Ideal S256x256 .bf16)
    = truncf (F := Ideal) .bf16 (transpose S256x256 [1, 0] (m ((c : Thread nD τ).loc main_arg14)) transposes_S256x256_S256x256_1_0) bitsLt_bf16_f32 := by
  show StableHlo.after hostOps0 (fun b => m (c, b)) (Proc.devRef .tc main_v17) = _
  after_results

/-! ## The incoming state -/

/-- The block of the incoming state at point `t` is row `t / 4` of the `[8, 256]` argument. -/
theorem s_blk (c : Dev nD) (t : Fin cfg0.N) (j : Fin 256) :
    (iblk m c 1 t : Vec Ideal S1x1x256 .f32) (ix3 (0 : Fin 1) (0 : Fin 1) j)
      = m ((c : Thread nD τ).loc main_arg1) (ix2 (bOf t) j) := by
  unfold iblk
  rw [View.read_apply]
  show V m c main_v18 (((cfg0.win 1).blk t).view.emb _) = _
  obtain ⟨e0, e1, e2⟩ := idx1 t
  have hemb : ((cfg0.win 1).blk t).view.emb (ix3 (0 : Fin 1) (0 : Fin 1) j) = (ix3 (bOf t) (0 : Fin 1) j : S8x1x256.Idx) :=
    funext fun a => Fin.ext (by
      match a with
      | ⟨0, _⟩ => show win0_1.index t (0 : Fin 3) * 1 + 1 * 0 = t.val / 4; rw [e0]; omega
      | ⟨1, _⟩ => show win0_1.index t (1 : Fin 3) * 1 + 1 * 0 = 0; rw [e1]
      | ⟨2, _⟩ => show win0_1.index t (2 : Fin 3) * 256 + 1 * j.val = j.val; rw [e2]; omega)
  refine (congrArg (V m c main_v18) hemb).trans ?_
  refine (congrFun (V_v18 m c) _).trans ?_
  exact shapeCast_mid_unit_apply _ _ (bOf t) (0 : Fin 1) j

/-! ## The matrices: each window holds its whole array, the argument transposed -/

/-- Window 2's block at any point is the whole `[1024, 256]` array: entry `(i, o)` is the argument's entry `(o, i)`. -/
theorem w2_blk (c : Dev nD) (t : Fin cfg0.N) (i : Fin 1024) (o : Fin 256) :
    (iblk m c 2 t : Vec Ideal S1024x256 .bf16) (ix2 i o) = m ((c : Thread nD τ).loc main_arg2) (ix2 o i) := by
  unfold iblk
  rw [View.read_apply]
  show V m c main_v1 (((cfg0.win 2).blk t).view.emb _) = _
  obtain ⟨e0, e1⟩ := idx2 t
  have hemb : ((cfg0.win 2).blk t).view.emb (ix2 i o) = (ix2 i o : S1024x256.Idx) :=
    funext fun a => Fin.ext (by
      match a with
      | ⟨0, _⟩ => show win0_2.index t (0 : Fin 2) * 1024 + 1 * i.val = i.val; rw [e0]; omega
      | ⟨1, _⟩ => show win0_2.index t (1 : Fin 2) * 256 + 1 * o.val = o.val; rw [e1]; omega)
  refine (congrArg (V m c main_v1) hemb).trans ?_
  refine (congrFun (V_v1 m c) _).trans ?_
  exact transpose_ix2_apply (m ((c : Thread nD τ).loc main_arg2)) transposes_S256x1024_S1024x256_1_0 i o

/-- Window 3's block at any point is the whole `[1024, 256]` array: entry `(i, o)` is the argument's entry `(o, i)`. -/
theorem w3_blk (c : Dev nD) (t : Fin cfg0.N) (i : Fin 1024) (o : Fin 256) :
    (iblk m c 3 t : Vec Ideal S1024x256 .bf16) (ix2 i o) = m ((c : Thread nD τ).loc main_arg3) (ix2 o i) := by
  unfold iblk
  rw [View.read_apply]
  show V m c main_v3 (((cfg0.win 3).blk t).view.emb _) = _
  obtain ⟨e0, e1⟩ := idx3 t
  have hemb : ((cfg0.win 3).blk t).view.emb (ix2 i o) = (ix2 i o : S1024x256.Idx) :=
    funext fun a => Fin.ext (by
      match a with
      | ⟨0, _⟩ => show win0_3.index t (0 : Fin 2) * 1024 + 1 * i.val = i.val; rw [e0]; omega
      | ⟨1, _⟩ => show win0_3.index t (1 : Fin 2) * 256 + 1 * o.val = o.val; rw [e1]; omega)
  refine (congrArg (V m c main_v3) hemb).trans ?_
  refine (congrFun (V_v3 m c) _).trans ?_
  exact transpose_ix2_apply (m ((c : Thread nD τ).loc main_arg3)) transposes_S256x1024_S1024x256_1_0 i o

/-- Window 4's block at any point is the whole `[256, 256]` array: entry `(i, o)` is the argument's entry `(o, i)`. -/
theorem w4_blk (c : Dev nD) (t : Fin cfg0.N) (i : Fin 256) (o : Fin 256) :
    (iblk m c 4 t : Vec Ideal S256x256 .bf16) (ix2 i o) = m ((c : Thread nD τ).loc main_arg4) (ix2 o i) := by
  unfold iblk
  rw [View.read_apply]
  show V m c main_v5 (((cfg0.win 4).blk t).view.emb _) = _
  obtain ⟨e0, e1⟩ := idx4 t
  have hemb : ((cfg0.win 4).blk t).view.emb (ix2 i o) = (ix2 i o : S256x256.Idx) :=
    funext fun a => Fin.ext (by
      match a with
      | ⟨0, _⟩ => show win0_4.index t (0 : Fin 2) * 256 + 1 * i.val = i.val; rw [e0]; omega
      | ⟨1, _⟩ => show win0_4.index t (1 : Fin 2) * 256 + 1 * o.val = o.val; rw [e1]; omega)
  refine (congrArg (V m c main_v5) hemb).trans ?_
  refine (congrFun (V_v5 m c) _).trans ?_
  exact transpose_ix2_apply (m ((c : Thread nD τ).loc main_arg4)) transposes_S256x256_S256x256_1_0 i o

/-- Window 5's block at any point is the whole `[256, 1024]` array: entry `(i, o)` is the argument's entry `(o, i)`. -/
theorem w5_blk (c : Dev nD) (t : Fin cfg0.N) (i : Fin 256) (o : Fin 1024) :
    (iblk m c 5 t : Vec Ideal S256x1024 .bf16) (ix2 i o) = m ((c : Thread nD τ).loc main_arg5) (ix2 o i) := by
  unfold iblk
  rw [View.read_apply]
  show V m c main_v7 (((cfg0.win 5).blk t).view.emb _) = _
  obtain ⟨e0, e1⟩ := idx5 t
  have hemb : ((cfg0.win 5).blk t).view.emb (ix2 i o) = (ix2 i o : S256x1024.Idx) :=
    funext fun a => Fin.ext (by
      match a with
      | ⟨0, _⟩ => show win0_5.index t (0 : Fin 2) * 256 + 1 * i.val = i.val; rw [e0]; omega
      | ⟨1, _⟩ => show win0_5.index t (1 : Fin 2) * 1024 + 1 * o.val = o.val; rw [e1]; omega)
  refine (congrArg (V m c main_v7) hemb).trans ?_
  refine (congrFun (V_v7 m c) _).trans ?_
  exact transpose_ix2_apply (m ((c : Thread nD τ).loc main_arg5)) transposes_S1024x256_S256x1024_1_0 i o

/-- Window 6's block at any point is the whole `[1024, 256]` array: entry `(i, o)` is the argument's entry `(o, i)`. -/
theorem w6_blk (c : Dev nD) (t : Fin cfg0.N) (i : Fin 1024) (o : Fin 256) :
    (iblk m c 6 t : Vec Ideal S1024x256 .bf16) (ix2 i o) = m ((c : Thread nD τ).loc main_arg6) (ix2 o i) := by
  unfold iblk
  rw [View.read_apply]
  show V m c main_v9 (((cfg0.win 6).blk t).view.emb _) = _
  obtain ⟨e0, e1⟩ := idx6 t
  have hemb : ((cfg0.win 6).blk t).view.emb (ix2 i o) = (ix2 i o : S1024x256.Idx) :=
    funext fun a => Fin.ext (by
      match a with
      | ⟨0, _⟩ => show win0_6.index t (0 : Fin 2) * 1024 + 1 * i.val = i.val; rw [e0]; omega
      | ⟨1, _⟩ => show win0_6.index t (1 : Fin 2) * 256 + 1 * o.val = o.val; rw [e1]; omega)
  refine (congrArg (V m c main_v9) hemb).trans ?_
  refine (congrFun (V_v9 m c) _).trans ?_
  exact transpose_ix2_apply (m ((c : Thread nD τ).loc main_arg6)) transposes_S256x1024_S1024x256_1_0 i o

/-- Window 8's block at any point is the whole `[256, 256]` array: entry `(i, o)` is the argument's entry `(o, i)`. -/
theorem w8_blk (c : Dev nD) (t : Fin cfg0.N) (i : Fin 256) (o : Fin 256) :
    (iblk m c 8 t : Vec Ideal S256x256 .bf16) (ix2 i o) = m ((c : Thread nD τ).loc main_arg8) (ix2 o i) := by
  unfold iblk
  rw [View.read_apply]
  show V m c main_v11 (((cfg0.win 8).blk t).view.emb _) = _
  obtain ⟨e0, e1⟩ := idx8 t
  have hemb : ((cfg0.win 8).blk t).view.emb (ix2 i o) = (ix2 i o : S256x256.Idx) :=
    funext fun a => Fin.ext (by
      match a with
      | ⟨0, _⟩ => show win0_8.index t (0 : Fin 2) * 256 + 1 * i.val = i.val; rw [e0]; omega
      | ⟨1, _⟩ => show win0_8.index t (1 : Fin 2) * 256 + 1 * o.val = o.val; rw [e1]; omega)
  refine (congrArg (V m c main_v11) hemb).trans ?_
  refine (congrFun (V_v11 m c) _).trans ?_
  exact transpose_ix2_apply (m ((c : Thread nD τ).loc main_arg8)) transposes_S256x256_S256x256_1_0 i o

/-- Window 10's block at any point is the whole `[1280, 256]` array: entry `(i, o)` is the argument's entry `(o, i)`. -/
theorem w10_blk (c : Dev nD) (t : Fin cfg0.N) (i : Fin 1280) (o : Fin 256) :
    (iblk m c 10 t : Vec Ideal S1280x256 .bf16) (ix2 i o) = m ((c : Thread nD τ).loc main_arg10) (ix2 o i) := by
  unfold iblk
  rw [View.read_apply]
  show V m c main_v13 (((cfg0.win 10).blk t).view.emb _) = _
  obtain ⟨e0, e1⟩ := idx10 t
  have hemb : ((cfg0.win 10).blk t).view.emb (ix2 i o) = (ix2 i o : S1280x256.Idx) :=
    funext fun a => Fin.ext (by
      match a with
      | ⟨0, _⟩ => show win0_10.index t (0 : Fin 2) * 1280 + 1 * i.val = i.val; rw [e0]; omega
      | ⟨1, _⟩ => show win0_10.index t (1 : Fin 2) * 256 + 1 * o.val = o.val; rw [e1]; omega)
  refine (congrArg (V m c main_v13) hemb).trans ?_
  refine (congrFun (V_v13 m c) _).trans ?_
  exact transpose_ix2_apply (m ((c : Thread nD τ).loc main_arg10)) transposes_S256x1280_S1280x256_1_0 i o

/-- Window 12's block at any point is the whole `[512, 256]` array: entry `(i, o)` is the argument's entry `(o, i)`. -/
theorem w12_blk (c : Dev nD) (t : Fin cfg0.N) (i : Fin 512) (o : Fin 256) :
    (iblk m c 12 t : Vec Ideal S512x256 .bf16) (ix2 i o) = m ((c : Thread nD τ).loc main_arg12) (ix2 o i) := by
  unfold iblk
  rw [View.read_apply]
  show V m c main_v15 (((cfg0.win 12).blk t).view.emb _) = _
  obtain ⟨e0, e1⟩ := idx12 t
  have hemb : ((cfg0.win 12).blk t).view.emb (ix2 i o) = (ix2 i o : S512x256.Idx) :=
    funext fun a => Fin.ext (by
      match a with
      | ⟨0, _⟩ => show win0_12.index t (0 : Fin 2) * 512 + 1 * i.val = i.val; rw [e0]; omega
      | ⟨1, _⟩ => show win0_12.index t (1 : Fin 2) * 256 + 1 * o.val = o.val; rw [e1]; omega)
  refine (congrArg (V m c main_v15) hemb).trans ?_
  refine (congrFun (V_v15 m c) _).trans ?_
  exact transpose_ix2_apply (m ((c : Thread nD τ).loc main_arg12)) transposes_S256x512_S512x256_1_0 i o

/-- Window 14's block at any point is the whole `[256, 256]` array: entry `(i, o)` is the argument's entry `(o, i)`. -/
theorem w14_blk (c : Dev nD) (t : Fin cfg0.N) (i : Fin 256) (o : Fin 256) :
    (iblk m c 14 t : Vec Ideal S256x256 .bf16) (ix2 i o) = m ((c : Thread nD τ).loc main_arg14) (ix2 o i) := by
  unfold iblk
  rw [View.read_apply]
  show V m c main_v17 (((cfg0.win 14).blk t).view.emb _) = _
  obtain ⟨e0, e1⟩ := idx14 t
  have hemb : ((cfg0.win 14).blk t).view.emb (ix2 i o) = (ix2 i o : S256x256.Idx) :=
    funext fun a => Fin.ext (by
      match a with
      | ⟨0, _⟩ => show win0_14.index t (0 : Fin 2) * 256 + 1 * i.val = i.val; rw [e0]; omega
      | ⟨1, _⟩ => show win0_14.index t (1 : Fin 2) * 256 + 1 * o.val = o.val; rw [e1]; omega)
  refine (congrArg (V m c main_v17) hemb).trans ?_
  refine (congrFun (V_v17 m c) _).trans ?_
  exact transpose_ix2_apply (m ((c : Thread nD τ).loc main_arg14)) transposes_S256x256_S256x256_1_0 i o

/-! ## The vectors of 256 entries: each window holds its whole argument -/

/-- Window 7's block at any point is the whole `[256]` argument. -/
theorem w7_blk (c : Dev nD) (t : Fin cfg0.N) (o : Fin 256) :
    (iblk m c 7 t : Vec Ideal S256 .f32) (ix1 o) = m ((c : Thread nD τ).loc main_arg7) (ix1 o) := by
  unfold iblk
  rw [View.read_apply]
  show V m c main_arg7 (((cfg0.win 7).blk t).view.emb _) = _
  refine (congrFun (V_main_arg7 m c) _).trans ?_
  have e0 := idx7 t
  refine congrArg _ (funext fun a => Fin.ext ?_)
  match a with
  | ⟨0, _⟩ => show win0_7.index t (0 : Fin 1) * 256 + 1 * o.val = o.val; rw [e0]; omega

/-- Window 9's block at any point is the whole `[256]` argument. -/
theorem w9_blk (c : Dev nD) (t : Fin cfg0.N) (o : Fin 256) :
    (iblk m c 9 t : Vec Ideal S256 .f32) (ix1 o) = m ((c : Thread nD τ).loc main_arg9) (ix1 o) := by
  unfold iblk
  rw [View.read_apply]
  show V m c main_arg9 (((cfg0.win 9).blk t).view.emb _) = _
  refine (congrFun (V_main_arg9 m c) _).trans ?_
  have e0 := idx9 t
  refine congrArg _ (funext fun a => Fin.ext ?_)
  match a with
  | ⟨0, _⟩ => show win0_9.index t (0 : Fin 1) * 256 + 1 * o.val = o.val; rw [e0]; omega

/-- Window 11's block at any point is the whole `[256]` argument. -/
theorem w11_blk (c : Dev nD) (t : Fin cfg0.N) (o : Fin 256) :
    (iblk m c 11 t : Vec Ideal S256 .f32) (ix1 o) = m ((c : Thread nD τ).loc main_arg11) (ix1 o) := by
  unfold iblk
  rw [View.read_apply]
  show V m c main_arg11 (((cfg0.win 11).blk t).view.emb _) = _
  refine (congrFun (V_main_arg11 m c) _).trans ?_
  have e0 := idx11 t
  refine congrArg _ (funext fun a => Fin.ext ?_)
  match a with
  | ⟨0, _⟩ => show win0_11.index t (0 : Fin 1) * 256 + 1 * o.val = o.val; rw [e0]; omega

/-- Window 13's block at any point is the whole `[256]` argument. -/
theorem w13_blk (c : Dev nD) (t : Fin cfg0.N) (o : Fin 256) :
    (iblk m c 13 t : Vec Ideal S256 .f32) (ix1 o) = m ((c : Thread nD τ).loc main_arg13) (ix1 o) := by
  unfold iblk
  rw [View.read_apply]
  show V m c main_arg13 (((cfg0.win 13).blk t).view.emb _) = _
  refine (congrFun (V_main_arg13 m c) _).trans ?_
  have e0 := idx13 t
  refine congrArg _ (funext fun a => Fin.ext ?_)
  match a with
  | ⟨0, _⟩ => show win0_13.index t (0 : Fin 1) * 256 + 1 * o.val = o.val; rw [e0]; omega

/-- Window 15's block at any point is the whole `[256]` argument. -/
theorem w15_blk (c : Dev nD) (t : Fin cfg0.N) (o : Fin 256) :
    (iblk m c 15 t : Vec Ideal S256 .f32) (ix1 o) = m ((c : Thread nD τ).loc main_arg15) (ix1 o) := by
  unfold iblk
  rw [View.read_apply]
  show V m c main_arg15 (((cfg0.win 15).blk t).view.emb _) = _
  refine (congrFun (V_main_arg15 m c) _).trans ?_
  have e0 := idx15 t
  refine congrArg _ (funext fun a => Fin.ext ?_)
  match a with
  | ⟨0, _⟩ => show win0_15.index t (0 : Fin 1) * 256 + 1 * o.val = o.val; rw [e0]; omega

/-! ## The output windows: a whole-array function read through block `t` -/

/-- Row `r` of block `t` of an `[8, 2048, 1024]` array is time step `(t % 4) * 512 + r` of batch entry `t / 4`. -/
theorem out_blk_read (c : Dev nD) (t : Fin cfg0.N) (G16 : Buf (Elt Ideal) ((c : Thread nD τ).loc main_v19_0))
    (r : Fin 512) (q : Fin 1024) :
    (((cfg0.win 16).blk t).view.read (Elt Ideal) G16 : Vec Ideal S1x512x1024 .f32) (ix3 (0 : Fin 1) r q)
      = G16 (ix3 (bOf t) (rowOf t r) q) := by
  rw [View.read_apply]
  show G16 (((cfg0.win 16).blk t).view.emb _) = _
  obtain ⟨e0, e1, e2⟩ := idx16 t
  refine congrArg G16 (funext fun a => Fin.ext ?_)
  match a with
  | ⟨0, _⟩ => show win0_16.index t (0 : Fin 3) * 1 + 1 * 0 = t.val / 4; rw [e0]; omega
  | ⟨1, _⟩ => show win0_16.index t (1 : Fin 3) * 512 + 1 * r.val = (t.val % 4) * 512 + r.val; rw [e1]; omega
  | ⟨2, _⟩ => show win0_16.index t (2 : Fin 3) * 1024 + 1 * q.val = q.val; rw [e2]; omega

/-- Block `t` of an `[8, 1, 256]` array is its row `t / 4`. -/
theorem hl_blk_read (c : Dev nD) (t : Fin cfg0.N) (G17 : Buf (Elt Ideal) ((c : Thread nD τ).loc main_v19_1))
    (j : Fin 256) :
    (((cfg0.win 17).blk t).view.read (Elt Ideal) G17 : Vec Ideal S1x1x256 .f32) (ix3 (0 : Fin 1) (0 : Fin 1) j)
      = G17 (ix3 (bOf t) (0 : Fin 1) j) := by
  rw [View.read_apply]
  show G17 (((cfg0.win 17).blk t).view.emb _) = _
  obtain ⟨e0, e1, e2⟩ := idx17 t
  refine congrArg G17 (funext fun a => Fin.ext ?_)
  match a with
  | ⟨0, _⟩ => show win0_17.index t (0 : Fin 3) * 1 + 1 * 0 = t.val / 4; rw [e0]; omega
  | ⟨1, _⟩ => show win0_17.index t (1 : Fin 3) * 1 + 1 * 0 = 0; rw [e1]
  | ⟨2, _⟩ => show win0_17.index t (2 : Fin 3) * 256 + 1 * j.val = j.val; rw [e2]; omega

/-! ## The output windows' blocks cover their arrays -/

/-- An index of the `[8, 2048, 1024]` array is in point `t`'s block iff each coordinate is in the block's range on its axis. -/
theorem mem_blk16 (t : Fin cfg0.N) (i : S8x2048x1024.Idx) :
    i ∈ ((cfg0.win 16).blk t).view.set ↔ ∀ a : Fin 3, win0_16.index t a * S1x512x1024.size a ≤ (i a).val
      ∧ (i a).val < win0_16.index t a * S1x512x1024.size a + S1x512x1024.size a := by
  show i ∈ ((View.whole main_v19_0).slice (win0_16.rect t)).set ↔ _
  rw [View.set_slice_whole, Rect.mem_set_unit]
  exact Iff.rfl

/-- An index of the `[8, 1, 256]` array is in point `t`'s block iff each coordinate is in the block's range on its axis. -/
theorem mem_blk17 (t : Fin cfg0.N) (i : S8x1x256.Idx) :
    i ∈ ((cfg0.win 17).blk t).view.set ↔ ∀ a : Fin 3, win0_17.index t a * S1x1x256.size a ≤ (i a).val
      ∧ (i a).val < win0_17.index t a * S1x1x256.size a + S1x1x256.size a := by
  show i ∈ ((View.whole main_v19_1).slice (win0_17.rect t)).set ↔ _
  rw [View.set_slice_whole, Rect.mem_set_unit]
  exact Iff.rfl

/-- Entry `(b, s, q)` of the output sequence is in the block of point `4 * b + s / 512`, which is written back. -/
theorem cover16_idx (i : S8x2048x1024.Idx) :
    ∃ t : Fin cfg0.N, (cfg0.win 16).flush t = true ∧ i ∈ ((cfg0.win 16).blk t).view.set := by
  have h0 : (i 0).val < 8 := (i 0).isLt
  have h1 : (i 1).val < 2048 := (i 1).isLt
  have h2 : (i 2).val < 1024 := (i 2).isLt
  have hN : cfg0.N = 32 := N_0
  obtain ⟨t, ht⟩ : ∃ t : Fin cfg0.N, t.val = 4 * (i 0).val + (i 1).val / 512 :=
    ⟨⟨4 * (i 0).val + (i 1).val / 512, by omega⟩, rfl⟩
  obtain ⟨e0, e1, e2⟩ := idx16 t
  refine ⟨t, flush0_16 t, ?_⟩
  rw [mem_blk16]
  intro a
  match a with
  | ⟨0, _⟩ =>
    show win0_16.index t (0 : Fin 3) * 1 ≤ (i 0).val ∧ (i 0).val < win0_16.index t (0 : Fin 3) * 1 + 1
    rw [e0]; omega
  | ⟨1, _⟩ =>
    show win0_16.index t (1 : Fin 3) * 512 ≤ (i 1).val ∧ (i 1).val < win0_16.index t (1 : Fin 3) * 512 + 512
    rw [e1]; omega
  | ⟨2, _⟩ =>
    show win0_16.index t (2 : Fin 3) * 1024 ≤ (i 2).val ∧ (i 2).val < win0_16.index t (2 : Fin 3) * 1024 + 1024
    rw [e2]; omega

/-- Entry `(b, 0, j)` of the outgoing state is in the block of point `4 * b + 3`, the last time tile of batch entry `b`,
    where the block is written back. -/
theorem cover17_idx (i : S8x1x256.Idx) :
    ∃ t : Fin cfg0.N, (cfg0.win 17).flush t = true ∧ i ∈ ((cfg0.win 17).blk t).view.set := by
  have h0 : (i 0).val < 8 := (i 0).isLt
  have h1 : (i 1).val < 1 := (i 1).isLt
  have h2 : (i 2).val < 256 := (i 2).isLt
  have hN : cfg0.N = 32 := N_0
  obtain ⟨t, ht⟩ : ∃ t : Fin cfg0.N, t.val = 4 * (i 0).val + 3 := ⟨⟨4 * (i 0).val + 3, by omega⟩, rfl⟩
  obtain ⟨e0, e1, e2⟩ := idx17 t
  refine ⟨t, (flush0_17 t).mpr (by omega), ?_⟩
  rw [mem_blk17]
  intro a
  match a with
  | ⟨0, _⟩ =>
    show win0_17.index t (0 : Fin 3) * 1 ≤ (i 0).val ∧ (i 0).val < win0_17.index t (0 : Fin 3) * 1 + 1
    rw [e0]; omega
  | ⟨1, _⟩ =>
    show win0_17.index t (1 : Fin 3) * 1 ≤ (i 1).val ∧ (i 1).val < win0_17.index t (1 : Fin 3) * 1 + 1
    rw [e1]; omega
  | ⟨2, _⟩ =>
    show win0_17.index t (2 : Fin 3) * 256 ≤ (i 2).val ∧ (i 2).val < win0_17.index t (2 : Fin 3) * 256 + 256
    rw [e2]; omega

/-- Every entry of the output sequence's array is in some written-back block. -/
theorem cover16 (c : Dev nD) : ∀ i : ((cfg0.win 16).arr.view.loc (c.tc : Thread nD τ)).2.ty.Idx,
    ∃ t : Fin cfg0.N, (cfg0.win 16).flush t = true ∧ i ∈ ((cfg0.win 16).blk t).view.set :=
  fun i => cover16_idx i

/-- Every entry of the outgoing state's array is in some written-back block. -/
theorem cover17 (c : Dev nD) : ∀ i : ((cfg0.win 17).arr.view.loc (c.tc : Thread nD τ)).2.ty.Idx,
    ∃ t : Fin cfg0.N, (cfg0.win 17).flush t = true ∧ i ∈ ((cfg0.win 17).blk t).view.set :=
  fun i => cover17_idx i

end Cert.BlockReads

end
-- ==== Proof.KernelSpec.lean ====
import proofs.«102208_j39900246180109_2_alg».proof.Proof.Gen.KernelIdeal
import proofs.«102208_j39900246180109_2_alg».proof.Proof.RowSpec

/-!
# The kernel's two results as functions of its argument arrays

`out[b, t, q]` is the row function's output row of the token `(b, t)` — the input row `x[b, t, :]` and the state row
`prev_state[b, :]` — at `q`; `h_last[b, j]` is its hidden row at time step 2047, at `j`. The weights are read off the
argument arrays as they are passed (each weight array laid out (output unit, input unit)).
-/

noncomputable section

namespace Cert.KernelSpec

open Idealize.ShloMosaic Idealize.ShloMosaic.ValueIdx Idealize.ShloMosaic.TcCoe Idealize.SL.Sem Cert.KernelIdeal Cert.RowSpec

variable (m : (ℓ : Loc nD τ sig) → Buf (Elt Ideal) ℓ)

/-- The cell's parameters, read off the fourteen parameter arrays in memory. -/
def params (c : Dev nD) : Params :=
  paramsOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

/-- Token `(b, t)`'s input row. -/
def xRow (c : Dev nD) (b : Fin 8) (t : Fin 2048) : Fin 1024 → EReal := fun i => m ((c : Thread nD τ).loc main_arg0) (ix3 b t i)

/-- Batch entry `b`'s previous-state row. -/
def sRow (c : Dev nD) (b : Fin 8) : Fin 256 → EReal := fun j => m ((c : Thread nD τ).loc main_arg1) (ix2 b j)

/-- The output array `[8, 2048, 1024]`. -/
def outArr (c : Dev nD) : Buf (Elt Ideal) ((c : Thread nD τ).loc main_v19_0) :=
  fun i => outRow (params m c) (xRow m c (i 0) (i 1)) (sRow m c (i 0)) (i 2)

/-- The last hidden state with its unit time axis, `[8, 1, 256]`, as the call returns it. -/
def lastArr3 (c : Dev nD) : Buf (Elt Ideal) ((c : Thread nD τ).loc main_v19_1) :=
  fun i => hRow (params m c) (xRow m c (i 0) (⟨2047, by decide⟩ : Fin 2048)) (sRow m c (i 0)) (i 2)

/-- The last hidden state `[8, 256]`. -/
def lastArr (c : Dev nD) : Buf (Elt Ideal) ((c : Thread nD τ).loc main_v20) :=
  fun i => hRow (params m c) (xRow m c (i 0) (⟨2047, by decide⟩ : Fin 2048)) (sRow m c (i 0)) (i 1)

end Cert.KernelSpec

end
-- ==== Proof.KernelValue.lean ====
import proofs.«102208_j39900246180109_2_alg».proof.Proof.KernelRow
import proofs.«102208_j39900246180109_2_alg».proof.Proof.CasePieces
import proofs.«102208_j39900246180109_2_alg».proof.Proof.BlockReads
import proofs.«102208_j39900246180109_2_alg».proof.Proof.KernelSpec
import Idealize.ShloMosaic.Lib.Pipeline.Value
import Idealize.ShloMosaic.Lib.StableHlo.Run

/-!
# The kernel's run ends with the two result arrays of `KernelSpec`

The grid has 32 points, point `t` being batch entry `t / 4` and time tile `t % 4` (512 time steps each). At every point
the output buffer ends holding the point's output block, which is written back to rows `512·(t % 4) … 512·(t % 4) + 511`
of batch entry `t / 4` of the output array; at the points `t % 4 = 3` the last-row buffer ends holding row 511 of the
hidden block — time step 2047 — and is written back to batch entry `t / 4` of the [8, 1, 256] result. Nothing is carried
from one point to the next. By the row-by-row reading of the body (`KernelRow`) and of the windows (`BlockReads`), each
written-back block is the corresponding block of ONE whole-array function (`KernelSpec.outArr`, `KernelSpec.lastArr3`);
the blocks cover the arrays, so the arrays end holding those functions. The one host operation after the region drops the
unit time axis of the second result.
-/

set_option maxRecDepth 16384

noncomputable section

namespace Cert.KernelValue

open Idealize.ShloMosaic Idealize.ShloMosaic.ValueIdx Idealize.ShloMosaic.TcCoe Idealize.SL.Sem
open Cert.KernelIdeal Cert.KernelIdeal.Gen Cert.KernelIdeal.Facts₀ Cert.KernelIdeal.Facts
open Cert.RowSpec Cert.KernelSpec Cert.BlockReads
open Idealize.ShloMosaic.Pipeline (Dat)

variable (m : (ℓ : Loc nD τ sig) → Buf (Elt Ideal) ℓ) (ρ : Dev nD → PrngReg)

/-! ## The point's blocks are the memory's rows and weights -/

/-- The weights the body finds in its blocks at any point are the memory's parameters (each weight block is the
    transposed parameter array, whole). -/
theorem blockParams_eq (c : Dev nD) (t : Fin cfg0.N) :
    Cert.KernelRow.blockParams (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) (iblk m c 14 t) (iblk m c 15 t) = params m c := by
  unfold Cert.KernelRow.blockParams params paramsOf
  rw [Params.mk.injEq]
  exact ⟨funext fun o => funext fun i => w2_blk m c t i o, funext fun o => funext fun i => w3_blk m c t i o,
    funext fun o => funext fun i => w4_blk m c t i o, funext fun q => funext fun k => w5_blk m c t k q,
    funext fun o => funext fun i => w6_blk m c t i o, funext fun o => w7_blk m c t o,
    funext fun o => funext fun i => w8_blk m c t i o, funext fun o => w9_blk m c t o,
    funext fun o => funext fun k => w10_blk m c t k o, funext fun o => w11_blk m c t o,
    funext fun o => funext fun k => w12_blk m c t k o, funext fun o => w13_blk m c t o,
    funext fun o => funext fun i => w14_blk m c t i o, funext fun o => w15_blk m c t o⟩

/-- Row `p` of the point's input block is the input row of the token (batch entry, time step) it stands for. -/
theorem xrow_eq (c : Dev nD) (t : Fin cfg0.N) (p : Fin 512) :
    (fun i : Fin 1024 => (iblk m c 0 t : Vec Ideal S1x512x1024 .f32) (ix3 (0 : Fin 1) p i)) = xRow m c (bOf t) (rowOf t p) :=
  funext fun i => x_blk m c t p i

/-- The point's state block is the state row of its batch entry. -/
theorem srow_eq (c : Dev nD) (t : Fin cfg0.N) :
    (fun j : Fin 256 => (iblk m c 1 t : Vec Ideal S1x1x256 .f32) (ix3 (0 : Fin 1) (0 : Fin 1) j)) = sRow m c (bOf t) :=
  funext fun j => s_blk m c t j

/-! ## What the two output buffers hold after the body at point `t` -/

/-- The components of a pair known by an equation. -/
theorem fst_of_eq {α β : Type} {p : α × β} {a : α} {b : β} (h : p = (a, b)) : p.1 = a := by subst h; rfl
theorem snd_of_eq {α β : Type} {p : α × β} {a : α} {b : β} (h : p = (a, b)) : p.2 = b := by subst h; rfl

set_option maxHeartbeats 2000000 in
theorem outs_16 (c : Dev nD) (t : Fin cfg0.N) :
    (outsAt0 m c t.val t.isLt).1 = Cert.CasePieces.outOf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by
  by_cases h : t.val % 4 = 3
  · exact (fst_of_eq (outsAt0_B m c t h)).trans
      (Cert.CasePieces.out_B_16 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t))
  · exact (fst_of_eq (outsAt0_A m c t h)).trans
      (Cert.CasePieces.out_A_16 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (fun h' => h ((hcond0_0 t).mp h')) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t))

set_option maxHeartbeats 2000000 in
theorem outs_17 (c : Dev nD) (t : Fin cfg0.N) (h : t.val % 4 = 3) :
    (outsAt0 m c t.val t.isLt).2 = k0_pay2 (Cert.CasePieces.hiddenOf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) :=
  (snd_of_eq (outsAt0_B m c t h)).trans
    (Cert.CasePieces.out_B_17 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t))

/-! ## Each write-back writes its block of the whole-array function -/

set_option maxHeartbeats 2000000 in
/-- Every point writes back, into the output array, its block of `outArr`. -/
theorem flushed16 (c : Dev nD) (t : Fin cfg0.N) (hf : (cfg0.win 16).flush t = true) :
    (dats m 0 c).flushed 16 t = ((cfg0.win 16).blk t).view.read (Elt Ideal) (outArr m c) := by
  show (cfg0.win 16).cut (grid0.coords t) ((dats m 0 c).after 16 t) = _
  rw [after0_16, outs_16]
  refine funext fun (y : S1x512x1024.Idx) => ?_
  obtain ⟨u, p, q, rfl⟩ : ∃ (u : Fin 1) (p : Fin 512) (q : Fin 1024), y = ix3 u p q := ⟨y 0, y 1, y 2, eq_ix3 y⟩
  obtain rfl : u = 0 := Fin.ext (by omega)
  refine (Cert.KernelRow.out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) 0 p q).trans ?_
  rw [blockParams_eq, xrow_eq, srow_eq]
  exact (out_blk_read c t (outArr m c) p q).symm

set_option maxHeartbeats 2000000 in
/-- The last time tile of each batch entry writes back, into the [8, 1, 256] result, its block of `lastArr3`. -/
theorem flushed17 (c : Dev nD) (t : Fin cfg0.N) (hf : (cfg0.win 17).flush t = true) :
    (dats m 0 c).flushed 17 t = ((cfg0.win 17).blk t).view.read (Elt Ideal) (lastArr3 m c) := by
  have h3 : t.val % 4 = 3 := (flush0_17 t).mp hf
  show (cfg0.win 17).cut (grid0.coords t) ((dats m 0 c).after 17 t) = _
  rw [after0_17, outs_17 m c t h3]
  refine funext fun (y : S1x1x256.Idx) => ?_
  obtain ⟨u, u', o, rfl⟩ : ∃ (u u' : Fin 1) (o : Fin 256), y = ix3 u u' o := ⟨y 0, y 1, y 2, eq_ix3 y⟩
  obtain rfl : u = 0 := Fin.ext (by omega)
  obtain rfl : u' = 0 := Fin.ext (by omega)
  refine (Cert.KernelRow.last_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) 0 0 o).trans ?_
  rw [blockParams_eq, xrow_eq, srow_eq]
  have hrow : rowOf t (⟨511, by decide⟩ : Fin 512) = (⟨2047, by decide⟩ : Fin 2048) := Fin.ext (by
    rw [rowOf_val]; show t.val % 4 * 512 + 511 = 2047; omega)
  rw [hrow]
  exact (hl_blk_read c t (lastArr3 m c) o).symm

/-! ## The arrays after the run -/

theorem final16 (c : Dev nD) : (dats m 0 c).arrAt 16 cfg0.N = outArr m c :=
  (dats m 0 c).arrAt_eq_of_cover 16 (outArr m c) (flushed16 m c) (cover16 c)

theorem final17 (c : Dev nD) : (dats m 0 c).arrAt 17 cfg0.N = lastArr3 m c :=
  (dats m 0 c).arrAt_eq_of_cover 17 (lastArr3 m c) (flushed17 m c) (cover17 c)

/-- A [8, 1, 256] array with its unit time axis dropped: entry `(b, j)` is entry `(b, 0, j)`. -/
theorem dropTime_apply {α : Type} (x : S8x1x256.Idx → α) (h : S8x1x256.ShapeCasts S8x256) (b : Fin 8) (j : Fin 256) :
    shapeCast S8x256 x h (ix2 b j) = x (ix3 b (0 : Fin 1) j) :=
  shapeCast_apply x h _ _ (by
    rw [Shape.rowMajor_val_three, Shape.rowMajor_val_two]
    show (b.val * 1 + 0) * 256 + j.val = b.val * 256 + j.val
    omega)

/-- The host operation after the region drops the unit time axis: `h_last[b, j]` is entry `(b, 0, j)` of the call's result. -/
theorem tail20 (c : Dev nD) :
    Pipeline.afterTail₀ cfgs (dats m) 0 (V0 m) [hostOps1] c main_v20 = lastArr m c := by
  unfold Pipeline.afterTail₀
  show StableHlo.after hostOps1 _ (Proc.devRef .tc main_v20) = _
  after_results
  rw [(Pipeline.withArrays_arr spec0 launch0.win.arr_inj c _ _ 17).trans (final17 m c)]
  refine funext fun (i : S8x256.Idx) => ?_
  obtain ⟨b, j, rfl⟩ : ∃ (b : Fin 8) (j : Fin 256), i = ix2 b j := ⟨i 0, i 1, eq_ix2 i⟩
  exact dropTime_apply (lastArr3 m c) Facts₀.shapeCasts_S8x1x256_S8x256 b j

/-! ## The run -/

/-- Every weakly fair execution of the kernel's program terminates with the two results at `outArr` and `lastArr` of the
    launch memory and the sixteen arguments unchanged. -/
theorem run : θ_run defs (onTc (τ := τ) (main (F := Ideal))) ⟨m, fun _ => 0, ρ⟩ (fun r => ∀ c : Dev nD,
      r.2.mem ((c.tc : Thread nD τ).loc main_v19_0) = outArr m c
      ∧ r.2.mem ((c.tc : Thread nD τ).loc main_v20) = lastArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).1 16).trans (final16 m c),
      ((h c).2 main_v20 (Pipeline.mem_restRefs_of main_v20 (by decide) (by decide))).trans (tail20 m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c)),
      ((h c).1 9).trans (((dats m 0 c).arrAt_in 9 rfl _).trans ((A_eq m c 9).trans (V_main_arg9 m c))),
      (((h c).2 main_arg10 (Pipeline.mem_restRefs_of main_arg10 (by decide) (by decide))).trans (W_main_arg10 m (dats m) c)),
      ((h c).1 11).trans (((dats m 0 c).arrAt_in 11 rfl _).trans ((A_eq m c 11).trans (V_main_arg11 m c))),
      (((h c).2 main_arg12 (Pipeline.mem_restRefs_of main_arg12 (by decide) (by decide))).trans (W_main_arg12 m (dats m) c)),
      ((h c).1 13).trans (((dats m 0 c).arrAt_in 13 rfl _).trans ((A_eq m c 13).trans (V_main_arg13 m c))),
      (((h c).2 main_arg14 (Pipeline.mem_restRefs_of main_arg14 (by decide) (by decide))).trans (W_main_arg14 m (dats m) c)),
      ((h c).1 15).trans (((dats m 0 c).arrAt_in 15 rfl _).trans ((A_eq m c 15).trans (V_main_arg15 m c)))⟩)
    (run_main m ρ)

end Cert.KernelValue

end
-- ==== Proof.RefRow.lean ====
import proofs.«102208_j39900246180109_2_alg».proof.Proof.Gen.ReferenceIdeal.Read
import proofs.«102208_j39900246180109_2_alg».proof.Proof.RowSpec
import Idealize.ShloMosaic.Lib.Pipeline.Value
import Idealize.ShloMosaic.Lib.ValueIdx

/-!
# The reference, one token at a time

The reference program is a chain of whole-array operations: linear layers (contractions over the last axis),
broadcasts of the state row and of the biases along the batch and time axes, two joins along the last axis, and
pointwise arithmetic. None of them mixes two tokens. This module reads every stage at one index `(b, t, o)` and
shows that it is the corresponding term of the row function of `RowSpec`, applied to the input row `x[b,t,:]`,
the state row `s[b,:]` and the weights:

* the broadcast state at `(b, t, o)` is `s[b, o]`, a broadcast bias is the bias at `o`, a broadcast literal is its word;
* a linear layer at `(b, t, o)` is the contraction `dot` of the token's row with the weight row `o`;
* a join of two arrays along the last axis, read at `(b, t, k)`, is the join `cat` of the two rows at `k`;
* each sigmoid is spelt `1 / (1 + e^(-z))` and is the logistic function of `z`.

Composing these gives the hidden row (`h_apply`), the output row as the contraction of the hidden row with the
output weights (`out_apply`), and the last hidden state as the hidden row of the token at time `2047` (`hlast_apply`).
-/

noncomputable section

namespace Cert.RefRow

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-- Two indices of rank 1, 2 or 3 are equal when their coordinates are, axis by axis. -/
local macro "idx1" : tactic =>
  `(tactic| exact funext fun a => Fin.ext (by match a with | ⟨0, _⟩ => rfl))
local macro "idx2" : tactic =>
  `(tactic| exact funext fun a => Fin.ext (by match a with | ⟨0, _⟩ => rfl | ⟨1, _⟩ => rfl))
local macro "idx3" : tactic =>
  `(tactic| exact funext fun a => Fin.ext (by match a with | ⟨0, _⟩ => rfl | ⟨1, _⟩ => rfl | ⟨2, _⟩ => rfl))

variable (x0 : (⟨S8x2048x1024, .f32⟩ : BufTy).Contents (Elt Ideal)) (x1 : (⟨S8x256, .f32⟩ : BufTy).Contents (Elt Ideal))
  (x2 x3 : (⟨S256x1024, .f32⟩ : BufTy).Contents (Elt Ideal)) (x4 : (⟨S256x256, .f32⟩ : BufTy).Contents (Elt Ideal))
  (x5 : (⟨S1024x256, .f32⟩ : BufTy).Contents (Elt Ideal)) (x6 : (⟨S256x1024, .f32⟩ : BufTy).Contents (Elt Ideal))
  (x7 : (⟨S256, .f32⟩ : BufTy).Contents (Elt Ideal)) (x8 : (⟨S256x256, .f32⟩ : BufTy).Contents (Elt Ideal))
  (x9 : (⟨S256, .f32⟩ : BufTy).Contents (Elt Ideal)) (x10 : (⟨S256x1280, .f32⟩ : BufTy).Contents (Elt Ideal))
  (x11 : (⟨S256, .f32⟩ : BufTy).Contents (Elt Ideal)) (x12 : (⟨S256x512, .f32⟩ : BufTy).Contents (Elt Ideal))
  (x13 : (⟨S256, .f32⟩ : BufTy).Contents (Elt Ideal)) (x14 : (⟨S256x256, .f32⟩ : BufTy).Contents (Elt Ideal))
  (x15 : (⟨S256, .f32⟩ : BufTy).Contents (Elt Ideal))

/-! ## The broadcast state, the broadcast biases, the broadcast literals -/

/-- The state broadcast along time, at `(b, t, o)`, is `s[b, o]`. -/
theorem s_apply (b : Fin 8) (t : Fin 2048) (o : Fin 256) :
    val_main_v2 (F := Ideal) x1 (ix3 b t o) = x1 (ix2 b o) := by
  rw [val_main_v2_apply, val_main_v1_apply]
  exact congrArg x1 (by idx2)

/-- A bias broadcast along batch and time, at `(b, t, o)`, is the bias at `o`: here the decay gate's. -/
theorem bias_dc (b : Fin 8) (t : Fin 2048) (o : Fin 256) :
    val_main_v6 (F := Ideal) x11 (ix3 b t o) = x11 (ix1 o) := by
  rw [val_main_v6_apply, val_main_v5_apply]
  exact congrArg x11 (by idx1)

/-- The perturbation layer's bias at `(b, t, o)`. -/
theorem bias_pp (b : Fin 8) (t : Fin 2048) (o : Fin 256) :
    val_main_v29 (F := Ideal) x13 (ix3 b t o) = x13 (ix1 o) := by
  rw [val_main_v29_apply, val_main_v28_apply]
  exact congrArg x13 (by idx1)

/-- The perturbation gate's bias at `(b, t, o)`. -/
theorem bias_pg (b : Fin 8) (t : Fin 2048) (o : Fin 256) :
    val_main_v34 (F := Ideal) x15 (ix3 b t o) = x15 (ix1 o) := by
  rw [val_main_v34_apply, val_main_v33_apply]
  exact congrArg x15 (by idx1)

/-- The input gate's bias at `(b, t, o)`. -/
theorem bias_gx (b : Fin 8) (t : Fin 2048) (o : Fin 256) :
    val_main_v46 (F := Ideal) x7 (ix3 b t o) = x7 (ix1 o) := by
  rw [val_main_v46_apply, val_main_v45_apply]
  exact congrArg x7 (by idx1)

/-- The state gate's bias at `(b, t, o)`. -/
theorem bias_gs (b : Fin 8) (t : Fin 2048) (o : Fin 256) :
    val_main_v56 (F := Ideal) x9 (ix3 b t o) = x9 (ix1 o) := by
  rw [val_main_v56_apply, val_main_v55_apply]
  exact congrArg x9 (by idx1)

/-! A literal broadcast to the whole array is, at every index, the literal's word. -/

theorem one_v10 (i : S8x2048x256.Idx) : val_main_v10 (F := Ideal) i = RowSpec.one :=
  (val_main_v10_apply i).trans (val_main_cst_apply _)

theorem one_v12 (i : S8x2048x256.Idx) : val_main_v12 (F := Ideal) i = RowSpec.one :=
  (val_main_v12_apply i).trans (val_main_cst_0_apply _)

theorem one_v38 (i : S8x2048x256.Idx) : val_main_v38 (F := Ideal) i = RowSpec.one :=
  (val_main_v38_apply i).trans (val_main_cst_5_apply _)

theorem one_v40 (i : S8x2048x256.Idx) : val_main_v40 (F := Ideal) i = RowSpec.one :=
  (val_main_v40_apply i).trans (val_main_cst_6_apply _)

theorem one_v50 (i : S8x2048x256.Idx) : val_main_v50 (F := Ideal) i = RowSpec.one :=
  (val_main_v50_apply i).trans (val_main_cst_7_apply _)

theorem one_v52 (i : S8x2048x256.Idx) : val_main_v52 (F := Ideal) i = RowSpec.one :=
  (val_main_v52_apply i).trans (val_main_cst_8_apply _)

theorem one_v60 (i : S8x2048x256.Idx) : val_main_v60 (F := Ideal) i = RowSpec.one :=
  (val_main_v60_apply i).trans (val_main_cst_9_apply _)

theorem one_v62 (i : S8x2048x256.Idx) : val_main_v62 (F := Ideal) i = RowSpec.one :=
  (val_main_v62_apply i).trans (val_main_cst_10_apply _)

theorem negTwentieth_v15 (i : S8x2048x256.Idx) : val_main_v15 (F := Ideal) i = RowSpec.negTwentieth :=
  (val_main_v15_apply i).trans (val_main_cst_3_apply _)

theorem half_v23 (i : S8x2048x256.Idx) : val_main_v23 (F := Ideal) i = RowSpec.half :=
  (val_main_v23_apply i).trans (val_main_cst_4_apply _)

/-- The clip's lower bound `0.0`, broadcast. -/
theorem zero_lo (i : S8x2048x256.Idx) : val_main_call0_v1 (F := Ideal) i = RowSpec.zero :=
  ((val_main_call0_v1_apply i).trans (val_main_call0_v0_apply _)).trans (val_main_cst_1_apply _)

/-- The clip's upper bound `1.0`, broadcast. -/
theorem one_hi (i : S8x2048x256.Idx) : val_main_call0_v4 (F := Ideal) i = RowSpec.one :=
  ((val_main_call0_v4_apply i).trans (val_main_call0_v3_apply _)).trans (val_main_cst_2_apply _)

/-- The reference spells a sigmoid as a quotient, a sum, an exponential and a negation; over the extended reals that
    is the logistic function. -/
theorem sigmoid_spelt (z : Ideal .f32) :
    FloatOps.hostDivf (F := Ideal) (φ := .f32) RowSpec.one
        (FloatOps.addf RowSpec.one (FloatOps.hostUnary .exp (FloatOps.hostNegf z)))
      = Ideal.logistic z :=
  RowSpec.sigmoid_expanded z

/-! ## The linear layers of the input row and of the state row -/

/-- `x · W_inᵀ` at `(b, t, o)`: the token's input row against the weight row `o`. -/
theorem lin_in (b : Fin 8) (t : Fin 2048) (o : Fin 256) :
    val_main_v0 (F := Ideal) x0 x2 (ix3 b t o)
      = RowSpec.dot (fun i => x0 (ix3 b t i)) (fun i => x2 (ix2 o i)) := by
  rw [val_main_v0_apply]
  unfold RowSpec.dot
  refine Finset.sum_congr rfl fun k _ => ?_
  rw [show lidx_main_v0 (ix3 b t o) k = ix3 b t k by idx3, show ridx_main_v0 (ix3 b t o) k = ix2 o k by idx2]

/-- `x · W_xᵀ` at `(b, t, o)`. -/
theorem lin_x (b : Fin 8) (t : Fin 2048) (o : Fin 256) :
    val_main_v20 (F := Ideal) x0 x3 (ix3 b t o)
      = RowSpec.dot (fun i => x0 (ix3 b t i)) (fun i => x3 (ix2 o i)) := by
  rw [val_main_v20_apply]
  unfold RowSpec.dot
  refine Finset.sum_congr rfl fun k _ => ?_
  rw [show lidx_main_v20 (ix3 b t o) k = ix3 b t k by idx3, show ridx_main_v20 (ix3 b t o) k = ix2 o k by idx2]

/-- `x · W_gxᵀ` at `(b, t, o)`. -/
theorem lin_gx (b : Fin 8) (t : Fin 2048) (o : Fin 256) :
    val_main_v44 (F := Ideal) x0 x6 (ix3 b t o)
      = RowSpec.dot (fun i => x0 (ix3 b t i)) (fun i => x6 (ix2 o i)) := by
  rw [val_main_v44_apply]
  unfold RowSpec.dot
  refine Finset.sum_congr rfl fun k _ => ?_
  rw [show lidx_main_v44 (ix3 b t o) k = ix3 b t k by idx3, show ridx_main_v44 (ix3 b t o) k = ix2 o k by idx2]

/-- `s · W_sᵀ` at `(b, t, o)`: the state row of batch entry `b` against the weight row `o`, whatever `t`. -/
theorem lin_s (b : Fin 8) (t : Fin 2048) (o : Fin 256) :
    val_main_v22 (F := Ideal) x1 x4 (ix3 b t o)
      = RowSpec.dot (fun j => x1 (ix2 b j)) (fun i => x4 (ix2 o i)) := by
  rw [val_main_v22_apply]
  unfold RowSpec.dot
  refine Finset.sum_congr rfl fun k _ => ?_
  rw [show lidx_main_v22 (ix3 b t o) k = ix3 b t k by idx3, show ridx_main_v22 (ix3 b t o) k = ix2 o k by idx2,
    s_apply]

/-- `s · W_pgᵀ` at `(b, t, o)`. -/
theorem lin_pg (b : Fin 8) (t : Fin 2048) (o : Fin 256) :
    val_main_v32 (F := Ideal) x1 x14 (ix3 b t o)
      = RowSpec.dot (fun j => x1 (ix2 b j)) (fun i => x14 (ix2 o i)) := by
  rw [val_main_v32_apply]
  unfold RowSpec.dot
  refine Finset.sum_congr rfl fun k _ => ?_
  rw [show lidx_main_v32 (ix3 b t o) k = ix3 b t k by idx3, show ridx_main_v32 (ix3 b t o) k = ix2 o k by idx2,
    s_apply]

/-- `s · W_gsᵀ` at `(b, t, o)`. -/
theorem lin_gs (b : Fin 8) (t : Fin 2048) (o : Fin 256) :
    val_main_v54 (F := Ideal) x1 x8 (ix3 b t o)
      = RowSpec.dot (fun j => x1 (ix2 b j)) (fun i => x8 (ix2 o i)) := by
  rw [val_main_v54_apply]
  unfold RowSpec.dot
  refine Finset.sum_congr rfl fun k _ => ?_
  rw [show lidx_main_v54 (ix3 b t o) k = ix3 b t k by idx3, show ridx_main_v54 (ix3 b t o) k = ix2 o k by idx2,
    s_apply]

/-! ## The gates on one row -/

/-- The perturbation gate `σ(s · W_pgᵀ + b_pg)` at `(b, t, o)`. -/
theorem gate_p (b : Fin 8) (t : Fin 2048) (o : Fin 256) :
    val_main_v41 (F := Ideal) x1 x14 x15 (ix3 b t o)
      = Ideal.logistic (RowSpec.dot (fun j => x1 (ix2 b j)) (fun i => x14 (ix2 o i)) + x15 (ix1 o)) := by
  rw [val_main_v41_apply, val_main_v39_apply, val_main_v37_apply, val_main_v36_apply, val_main_v35_apply,
    one_v40, one_v38, lin_pg, bias_pg]
  exact sigmoid_spelt _

/-- The input gate `σ(x · W_gxᵀ + b_gx)` at `(b, t, o)`. -/
theorem gate_x (b : Fin 8) (t : Fin 2048) (o : Fin 256) :
    val_main_v53 (F := Ideal) x0 x6 x7 (ix3 b t o)
      = Ideal.logistic (RowSpec.dot (fun i => x0 (ix3 b t i)) (fun i => x6 (ix2 o i)) + x7 (ix1 o)) := by
  rw [val_main_v53_apply, val_main_v51_apply, val_main_v49_apply, val_main_v48_apply, val_main_v47_apply,
    one_v52, one_v50, lin_gx, bias_gx]
  exact sigmoid_spelt _

/-- The state gate `σ(s · W_gsᵀ + b_gs)` at `(b, t, o)`. -/
theorem gate_s (b : Fin 8) (t : Fin 2048) (o : Fin 256) :
    val_main_v63 (F := Ideal) x1 x8 x9 (ix3 b t o)
      = Ideal.logistic (RowSpec.dot (fun j => x1 (ix2 b j)) (fun i => x8 (ix2 o i)) + x9 (ix1 o)) := by
  rw [val_main_v63_apply, val_main_v61_apply, val_main_v59_apply, val_main_v58_apply, val_main_v57_apply,
    one_v62, one_v60, lin_gs, bias_gs]
  exact sigmoid_spelt _

/-! ## The context `[x, s]` and the decay -/

/-- The context array at `(b, t, k)` is the input row followed by the state row, at `k`. -/
theorem ctx_apply (b : Fin 8) (t : Fin 2048) (k : Fin 1280) :
    val_main_v3 (F := Ideal) x0 x1 (ix3 b t k) = RowSpec.cat (fun i => x0 (ix3 b t i)) (fun j => x1 (ix2 b j)) k := by
  unfold val_main_v3
  by_cases hk : k.val < 1024
  · rw [RowSpec.cat_left _ _ k hk]
    exact concatenate_pair_apply_left (2 : Fin S8x2048x1280.rank) x0 (val_main_v2 (F := Ideal) x1)
      concatenates_S8x2048x1024_S8x2048x256_S8x2048x1280_d2 (ix3 b t k) rfl (ix3 b t ⟨k.val, hk⟩)
      (fun a => by match a with | ⟨0, _⟩ => rfl | ⟨1, _⟩ => rfl | ⟨2, _⟩ => rfl)
  · have hk' : 1024 ≤ k.val := Nat.not_lt.1 hk
    have h2 : k.val - 1024 < 256 := by have := k.isLt; omega
    rw [RowSpec.cat_right _ _ k hk' h2]
    exact (concatenate_pair_apply_right (2 : Fin S8x2048x1280.rank) x0 (val_main_v2 (F := Ideal) x1)
      concatenates_S8x2048x1024_S8x2048x256_S8x2048x1280_d2 (ix3 b t k) rfl rfl (ix3 b t ⟨k.val - 1024, h2⟩)
      (fun a ha => by
        match a, ha with
        | ⟨0, _⟩, _ => rfl
        | ⟨1, _⟩, _ => rfl
        | ⟨2, _⟩, ha => exact absurd (Fin.ext rfl) ha)
      (by show k.val - 1024 + 1024 = k.val; omega)).trans (s_apply x1 b t ⟨k.val - 1024, h2⟩)

/-- `[x, s] · W_dcᵀ` at `(b, t, o)`. -/
theorem lin_dc (b : Fin 8) (t : Fin 2048) (o : Fin 256) :
    val_main_v4 (F := Ideal) x0 x1 x10 (ix3 b t o)
      = RowSpec.dot (RowSpec.cat (fun i => x0 (ix3 b t i)) (fun j => x1 (ix2 b j))) (fun k => x10 (ix2 o k)) := by
  rw [val_main_v4_apply]
  unfold RowSpec.dot
  refine Finset.sum_congr rfl fun k _ => ?_
  rw [show lidx_main_v4 (ix3 b t o) k = ix3 b t k by idx3, show ridx_main_v4 (ix3 b t o) k = ix2 o k by idx2,
    ctx_apply]

/-- The decay gate before the clip, `σ([x, s] · W_dcᵀ + b_dc)`, at `(b, t, o)`. -/
theorem gate_dc (b : Fin 8) (t : Fin 2048) (o : Fin 256) :
    val_main_v13 (F := Ideal) x0 x1 x10 x11 (ix3 b t o)
      = Ideal.logistic (RowSpec.dot (RowSpec.cat (fun i => x0 (ix3 b t i)) (fun j => x1 (ix2 b j))) (fun k => x10 (ix2 o k)) + x11 (ix1 o)) := by
  rw [val_main_v13_apply, val_main_v11_apply, val_main_v9_apply, val_main_v8_apply, val_main_v7_apply,
    one_v12, one_v10, lin_dc, bias_dc]
  exact sigmoid_spelt _

/-- The decay factor `exp(c · clip(σ(…), 0, 1))` at `(b, t, o)` is the row function's. -/
theorem decay_apply (b : Fin 8) (t : Fin 2048) (o : Fin 256) :
    val_main_v17 (F := Ideal) x0 x1 x10 x11 (ix3 b t o) = RowSpec.decay (RowSpec.paramsOf x2 x3 x4 x5 x6 x7 x8 x9 x10 x11 x12 x13 x14 x15) (fun i => x0 (ix3 b t i)) (fun j => x1 (ix2 b j)) o := by
  rw [val_main_v17_apply, val_main_v16_apply, val_main_v14_apply, val_main_call0_v2_apply,
    negTwentieth_v15, one_hi, zero_lo, gate_dc]
  rfl

/-! ## The predicted state, the perturbation, the corrected state -/

/-- The predicted state at `(b, t, o)`. -/
theorem spred_apply (b : Fin 8) (t : Fin 2048) (o : Fin 256) :
    val_main_v25 (F := Ideal) x0 x1 x2 x3 x4 x10 x11 (ix3 b t o) = RowSpec.sPred (RowSpec.paramsOf x2 x3 x4 x5 x6 x7 x8 x9 x10 x11 x12 x13 x14 x15) (fun i => x0 (ix3 b t i)) (fun j => x1 (ix2 b j)) o := by
  rw [val_main_v25_apply, val_main_v24_apply, val_main_v21_apply, val_main_v19_apply, val_main_v18_apply,
    s_apply, decay_apply x0 x1 x2 x3 x4 x5 x6 x7 x8 x9 x10 x11 x12 x13 x14 x15, lin_in, lin_x, lin_s, half_v23]
  rfl

/-- The perturbation input at `(b, t, k)` is the predicted row followed by the state row, at `k`. -/
theorem pin_apply (b : Fin 8) (t : Fin 2048) (k : Fin 512) :
    val_main_v26 (F := Ideal) x0 x1 x2 x3 x4 x10 x11 (ix3 b t k)
      = RowSpec.cat (RowSpec.sPred (RowSpec.paramsOf x2 x3 x4 x5 x6 x7 x8 x9 x10 x11 x12 x13 x14 x15) (fun i => x0 (ix3 b t i)) (fun j => x1 (ix2 b j))) (fun j => x1 (ix2 b j)) k := by
  unfold val_main_v26
  by_cases hk : k.val < 256
  · rw [RowSpec.cat_left _ _ k hk]
    exact (concatenate_pair_apply_left (2 : Fin S8x2048x512.rank) (val_main_v25 (F := Ideal) x0 x1 x2 x3 x4 x10 x11)
      (val_main_v2 (F := Ideal) x1) concatenates_S8x2048x256_S8x2048x256_S8x2048x512_d2 (ix3 b t k) rfl
      (ix3 b t ⟨k.val, hk⟩)
      (fun a => by match a with | ⟨0, _⟩ => rfl | ⟨1, _⟩ => rfl | ⟨2, _⟩ => rfl)).trans
      (spred_apply x0 x1 x2 x3 x4 x5 x6 x7 x8 x9 x10 x11 x12 x13 x14 x15 b t ⟨k.val, hk⟩)
  · have hk' : 256 ≤ k.val := Nat.not_lt.1 hk
    have h2 : k.val - 256 < 256 := by have := k.isLt; omega
    rw [RowSpec.cat_right _ _ k hk' h2]
    exact (concatenate_pair_apply_right (2 : Fin S8x2048x512.rank) (val_main_v25 (F := Ideal) x0 x1 x2 x3 x4 x10 x11)
      (val_main_v2 (F := Ideal) x1) concatenates_S8x2048x256_S8x2048x256_S8x2048x512_d2 (ix3 b t k) rfl rfl
      (ix3 b t ⟨k.val - 256, h2⟩)
      (fun a ha => by
        match a, ha with
        | ⟨0, _⟩, _ => rfl
        | ⟨1, _⟩, _ => rfl
        | ⟨2, _⟩, ha => exact absurd (Fin.ext rfl) ha)
      (by show k.val - 256 + 256 = k.val; omega)).trans (s_apply x1 b t ⟨k.val - 256, h2⟩)

/-- `[s_pred, s] · W_ppᵀ` at `(b, t, o)`. -/
theorem lin_pp (b : Fin 8) (t : Fin 2048) (o : Fin 256) :
    val_main_v27 (F := Ideal) x0 x1 x2 x3 x4 x10 x11 x12 (ix3 b t o)
      = RowSpec.dot (RowSpec.cat (RowSpec.sPred (RowSpec.paramsOf x2 x3 x4 x5 x6 x7 x8 x9 x10 x11 x12 x13 x14 x15) (fun i => x0 (ix3 b t i)) (fun j => x1 (ix2 b j))) (fun j => x1 (ix2 b j))) (fun k => x12 (ix2 o k)) := by
  rw [val_main_v27_apply]
  unfold RowSpec.dot
  refine Finset.sum_congr rfl fun k _ => ?_
  rw [show lidx_main_v27 (ix3 b t o) k = ix3 b t k by idx3, show ridx_main_v27 (ix3 b t o) k = ix2 o k by idx2,
    pin_apply x0 x1 x2 x3 x4 x5 x6 x7 x8 x9 x10 x11 x12 x13 x14 x15]

/-- The corrected state at `(b, t, o)`. -/
theorem scorr_apply (b : Fin 8) (t : Fin 2048) (o : Fin 256) :
    val_main_v43 (F := Ideal) x0 x1 x2 x3 x4 x10 x11 x12 x13 x14 x15 (ix3 b t o) = RowSpec.sCorr (RowSpec.paramsOf x2 x3 x4 x5 x6 x7 x8 x9 x10 x11 x12 x13 x14 x15) (fun i => x0 (ix3 b t i)) (fun j => x1 (ix2 b j)) o := by
  rw [val_main_v43_apply, val_main_v42_apply, val_main_v31_apply, val_main_v30_apply,
    spred_apply x0 x1 x2 x3 x4 x5 x6 x7 x8 x9 x10 x11 x12 x13 x14 x15, gate_p, lin_pp x0 x1 x2 x3 x4 x5 x6 x7 x8 x9 x10 x11 x12 x13 x14 x15, bias_pp]
  rfl

/-! ## The hidden row, the output row, the last hidden state -/

/-- The hidden array at `(b, t, o)` is the hidden row of the token `(b, t)` at `o`. -/
theorem h_apply (b : Fin 8) (t : Fin 2048) (o : Fin 256) :
    val_main_v65 (F := Ideal) x0 x1 x2 x3 x4 x6 x7 x8 x9 x10 x11 x12 x13 x14 x15 (ix3 b t o)
      = Cert.RowSpec.hRow (Cert.RowSpec.paramsOf x2 x3 x4 x5 x6 x7 x8 x9 x10 x11 x12 x13 x14 x15)
          (fun i => x0 (ix3 b t i)) (fun j => x1 (ix2 b j)) o := by
  rw [val_main_v65_apply, val_main_v64_apply, scorr_apply x0 x1 x2 x3 x4 x5 x6 x7 x8 x9 x10 x11 x12 x13 x14 x15, gate_x, gate_s]
  rfl

/-- The output array at `(b, t, q)` is the hidden row of the token `(b, t)` against the output weight row `q`. -/
theorem out_apply (b : Fin 8) (t : Fin 2048) (q : Fin 1024) :
    val_main_v66 (F := Ideal) x0 x1 x2 x3 x4 x5 x6 x7 x8 x9 x10 x11 x12 x13 x14 x15 (ix3 b t q)
      = Cert.RowSpec.outRow (Cert.RowSpec.paramsOf x2 x3 x4 x5 x6 x7 x8 x9 x10 x11 x12 x13 x14 x15)
          (fun i => x0 (ix3 b t i)) (fun j => x1 (ix2 b j)) q := by
  rw [val_main_v66_apply]
  unfold RowSpec.outRow RowSpec.dot
  refine Finset.sum_congr rfl fun k _ => ?_
  rw [show lidx_main_v66 (ix3 b t q) k = ix3 b t k by idx3, show ridx_main_v66 (ix3 b t q) k = ix2 q k by idx2,
    h_apply x0 x1 x2 x3 x4 x5 x6 x7 x8 x9 x10 x11 x12 x13 x14 x15]
  rfl

/-- The last hidden state at `(b, j)` is the hidden row of the token at time `2047`: the slice keeps that one time
    step and the reshape drops the unit axis, so `(b, j)` reads the hidden array at `(b, 2047, j)`. -/
theorem hlast_apply (b : Fin 8) (j : Fin 256) :
    val_main_v68 (F := Ideal) x0 x1 x2 x3 x4 x6 x7 x8 x9 x10 x11 x12 x13 x14 x15 (ix2 b j)
      = Cert.RowSpec.hRow (Cert.RowSpec.paramsOf x2 x3 x4 x5 x6 x7 x8 x9 x10 x11 x12 x13 x14 x15)
          (fun i => x0 (ix3 b (⟨2047, by decide⟩ : Fin 2048) i)) (fun j' => x1 (ix2 b j')) j := by
  have hb := b.isLt
  have hj := j.isLt
  have e : idx_main_v67 (idx_main_v68 (ix2 b j)) = ix3 b (⟨2047, by decide⟩ : Fin 2048) j :=
    funext fun a => Fin.ext (by
      match a with
      | ⟨0, _⟩ => show (b.val * 256 + j.val) / 256 = b.val; omega
      | ⟨1, _⟩ => rfl
      | ⟨2, _⟩ => show (b.val * 256 + j.val) % 256 = j.val; omega)
  rw [val_main_v68_apply, val_main_v67_apply, e]
  exact h_apply x0 x1 x2 x3 x4 x5 x6 x7 x8 x9 x10 x11 x12 x13 x14 x15 b ⟨2047, by decide⟩ j

end Cert.RefRow

end
-- ==== Proof.Bridge.lean ====
import proofs.«102208_j39900246180109_2_alg».proof.Proof.RefRow
import proofs.«102208_j39900246180109_2_alg».proof.Proof.KernelSpec
import Idealize.ShloMosaic.Lib.ValueIdx

/-!
# The reference's two results are the row function's arrays

The reference's output is, index by index, the output row of the token's input row and its batch entry's state row,
and its last hidden state is the hidden row of the token at time `2047`. When the reference's sixteen argument arrays
are the kernel's sixteen argument arrays, these are the two arrays of `KernelSpec`: the same row function applied
to the same rows and the same weights. Each proof reads the result at one index by its coordinates, replaces every
argument array of the one program by the equal array of the other, and is then an equation between two spellings of
one term.
-/

noncomputable section

namespace Cert.Bridge

open Idealize.ShloMosaic Idealize.ShloMosaic.ValueIdx Idealize.ShloMosaic.TcCoe Idealize.SL.Sem

/-- The reference's output array is the array of output rows, when the two programs' argument arrays agree. -/
theorem out_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.Value.res_main_v66 m' c = Cert.KernelSpec.outArr m c := by
  obtain ⟨h0, h1, h2, h3, h4, h5, h6, h7, h8, h9, h10, h11, h12, h13, h14, h15⟩ := hagree
  rw [Cert.ReferenceIdeal.Read.val_main_v66_eq, h0, h1, h2, h3, h4, h5, h6, h7, h8, h9, h10, h11, h12, h13, h14, h15]
  funext i
  obtain ⟨b, t, q, rfl⟩ : ∃ (b : Fin 8) (t : Fin 2048) (q : Fin 1024), i = ix3 b t q := ⟨i 0, i 1, i 2, eq_ix3 i⟩
  rw [Cert.RefRow.out_apply]
  rfl

/-- The reference's last hidden state is the array of hidden rows at time `2047`, when the two programs' argument
    arrays agree. -/
theorem last_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.Value.res_main_v68 m' c = Cert.KernelSpec.lastArr m c := by
  obtain ⟨h0, h1, h2, h3, h4, _, h6, h7, h8, h9, h10, h11, h12, h13, h14, h15⟩ := hagree
  rw [Cert.ReferenceIdeal.Read.val_main_v68_eq, h0, h1, h2, h3, h4, h6, h7, h8, h9, h10, h11, h12, h13, h14, h15]
  funext i
  obtain ⟨b, j, rfl⟩ : ∃ (b : Fin 8) (j : Fin 256), i = ix2 b j := ⟨i 0, i 1, eq_ix2 i⟩
  exact Cert.RefRow.hlast_apply
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      b j

end Cert.Bridge

end
-- ==== Proof.lean ====
/-
  A recurrent cell over 8 batch entries and 2048 time steps whose previous state does not change with time: every token
  `(b, t)` is computed from its input row `x[b, t, :]`, the state row `prev_state[b, :]` and the weights alone —
  nine linear layers, a clipped sigmoid inside an exponential decay, a gated `tanh` perturbation and two sigmoid gates
  (Proof/RowSpec.lean states that row function once, over the extended reals). The kernel grids over (batch entry, tile of
  512 time steps), keeps the pre-transposed weights resident, forms every linear layer as a product of the tile's rows
  with a weight block, and also returns the hidden row of the last time step; the reference does the same arithmetic as
  whole-array operations.

  Over the extended reals the two programs are the same function, with no appeal to finiteness: each side's sums run
  over the same positions with the same factors, the format changes are the identity, the kernel's logistic function is
  the reference's quotient `1 / (1 + e^(-z))`, both clip as `min 1 (max 0 ·)`, and every float literal is the same word
  on both sides. The ideal pass rewrote nothing, so `preserves` is trivial.

    Proof/BlockOps.lean, Proof/KernelRow.lean   the body's stores, read row by row, are the row function
    Proof/CasePieces.lean                        what each of the body's two control cases leaves in the output buffers
    Proof/BlockReads.lean                        which rows of which array a window's block is
    Proof/KernelSpec.lean, Proof/KernelValue.lean  the kernel's run ends with the two result arrays of the row function
    Proof/RefRow.lean, Proof/Bridge.lean         the reference's two results are the same arrays
-/
import proofs.«102208_j39900246180109_2_alg».proof.Defs
import proofs.«102208_j39900246180109_2_alg».proof.Proof.Gen.Kernel
import proofs.«102208_j39900246180109_2_alg».proof.Proof.Gen.Kernel.Skeleton
import proofs.«102208_j39900246180109_2_alg».proof.Proof.Gen.Kernel.Launch
import proofs.«102208_j39900246180109_2_alg».proof.Proof.Gen.Kernel.Points
import proofs.«102208_j39900246180109_2_alg».proof.Proof.Gen.Kernel.Frame
import proofs.«102208_j39900246180109_2_alg».proof.Proof.Gen.KernelIdeal
import proofs.«102208_j39900246180109_2_alg».proof.Proof.Gen.KernelIdeal.Skeleton
import proofs.«102208_j39900246180109_2_alg».proof.Proof.Gen.KernelIdeal.Launch
import proofs.«102208_j39900246180109_2_alg».proof.Proof.Gen.KernelIdeal.Points
import proofs.«102208_j39900246180109_2_alg».proof.Proof.Gen.KernelIdeal.Frame
import proofs.«102208_j39900246180109_2_alg».proof.Proof.Gen.ReferenceIdeal
import proofs.«102208_j39900246180109_2_alg».proof.Proof.Gen.Pre_finite_inputs
import proofs.«102208_j39900246180109_2_alg».proof.Proof.Gen.ReferenceIdeal.Run
import proofs.«102208_j39900246180109_2_alg».proof.Proof.Gen.ReferenceIdeal.Read
import proofs.«102208_j39900246180109_2_alg».proof.Proof.KernelValue
import proofs.«102208_j39900246180109_2_alg».proof.Proof.Bridge
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is straight-line host code: its run, with the two results forgotten. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization changed no operation. -/
theorem preserves : Cert.preserves_Kernel_KernelIdeal := trivial

/-- From memories agreeing on the arguments both programs end with `out[b, t, :]` the row function's output row of the
    token `(b, t)` and `h_last[b, :]` its hidden row at time step 2047. -/
theorem algebraic : Cert.algebraic_KernelIdeal_ReferenceIdeal := by
  intro m ρ m' ρ' _ hagree
  refine ⟨fun c => Cert.KernelSpec.outArr m c, fun c => Cert.KernelSpec.lastArr m c, Cert.KernelValue.run m ρ, ?_⟩
  exact (θ_run Cert.ReferenceIdeal.defs _ _).mono
    (fun _ h c => ⟨(h c).1.trans (Cert.Bridge.out_eq m m' c (hagree c)),
      (h c).2.1.trans (Cert.Bridge.last_eq m m' c (hagree c)), (h c).2.2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
